-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  main_v58

def fn_part2 {F : FTy → Type} [FloatOps F] (main_arg7 : FVec F S1024 .f32) (main_arg8 : FVec F S1024x1024 .f32) (main_arg9 : FVec F S1024 .f32) (main_arg10 : FVec F S1024 .f32) (main_arg11 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_v48 main_v49 main_v50

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024 .f32) (main_arg11 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S32768x1024 .f32) (main_arg1 : FVec F S32768x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024 .f32) (main_arg11 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_v13 main_v16
-- ==== Kernel.lean ====
abbrev S32768x1024 : Shape := ⟨2, ![32768, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S256x16x64 : Shape := ⟨3, ![256, 16, 64]⟩
abbrev S256x16x16 : Shape := ⟨3, ![256, 16, 16]⟩
abbrev S256x16 : Shape := ⟨2, ![256, 16]⟩
abbrev S256x16x1 : Shape := ⟨3, ![256, 16, 1]⟩
abbrev S256x64x16 : Shape := ⟨3, ![256, 64, 16]⟩
abbrev S256 : Shape := ⟨1, ![256]⟩
abbrev S256x1 : Shape := ⟨2, ![256, 1]⟩

abbrev nBuf : Space → Nat
  | .hbm => 27
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x1024, .bf16⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S256x1024_S256x16x64 : S256x1024.ShapeCasts S256x16x64
  reduces_S256x16x16_S256x16 : S256x16x16.Reduces [2] S256x16
  shapeCasts_S256x16_S256x16x1 : S256x16.ShapeCasts S256x16x1
  broadcasts_S256x16x1_S256x16x16 : S256x16x1.Broadcasts S256x16x16
  transposes_S256x16x64_p0_2_1_S256x64x16 : S256x16x64.Transposes [0, 2, 1] S256x64x16
  shapeCasts_S256x64x16_S256x1024 : S256x64x16.ShapeCasts S256x1024
  reduces_S256x1024_S256 : S256x1024.Reduces [1] S256
  shapeCasts_S256_S256x1 : S256.ShapeCasts S256x1
  broadcasts_S256x1_S256x1024 : S256x1.Broadcasts S256x1024
  dot_S256x1024_S1024x1024_S256x1024_1_0_0_1_n_n_wf : DotDims.WF S256x1024 S1024x1024 S256x1024 [1] [0] [0] [1] [] []
  dot_S256x16x64_S256x16x64_S256x16x16_2_2_1_1_0_0_wf : DotDims.WF S256x16x64 S256x16x64 S256x16x16 [2] [2] [1] [1] [0] [0]
  dot_S256x16x16_S256x16x64_S256x16x64_2_1_1_2_0_0_wf : DotDims.WF S256x16x16 S256x16x64 S256x16x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S32768x1024.size a
  hwx0_0 : ∀ i : grid0.Coords, EltTy.bits .f32 = 32 ∨ (Rect.block (s := S32768x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S32768x1024.size a
  hwx0_1 : ∀ i : grid0.Coords, EltTy.bits .f32 = 32 ∨ (Rect.block (s := S32768x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x1024.size a ≤ S32768x1024.size a
  hwx0_12 : ∀ i : grid0.Coords, EltTy.bits .f32 = 32 ∨ (Rect.block (s := S32768x1024) S256x1024.size (cc0_transform_12 i) (hinb0_12 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x16x64_S256x16x64_S256x16x16_2_2_1_1_0_0 : DotDims S256x16x64 S256x16x64 S256x16x16 where
  lhsContracting := [2]
  rhsContracting := [2]
  lhsNonContracting := [1]
  rhsNonContracting := [1]
  lhsBatch := [0]
  rhsBatch := [0]
  wf := dot_S256x16x64_S256x16x64_S256x16x16_2_2_1_1_0_0_wf
def dot_S256x16x16_S256x16x64_S256x16x64_2_1_1_2_0_0 : DotDims S256x16x16 S256x16x64 S256x16x64 where
  lhsContracting := [2]
  rhsContracting := [1]
  lhsNonContracting := [1]
  rhsNonContracting := [2]
  lhsBatch := [0]
  rhsBatch := [0]
  wf := dot_S256x16x16_S256x16x64_S256x16x64_2_1_1_2_0_0_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S256x1024.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024x1024 : Shape := ⟨2, ![1024, 1024]⟩
abbrev S1024 : Shape := ⟨1, ![1024]⟩
abbrev S1x1024 : Shape := ⟨2, ![1, 1024]⟩
abbrev S32768x16x64 : Shape := ⟨3, ![32768, 16, 64]⟩
abbrev S32768x16x16 : Shape := ⟨3, ![32768, 16, 16]⟩
abbrev S_ : Shape := ⟨0, ![]⟩
abbrev S32768x16 : Shape := ⟨2, ![32768, 16]⟩
abbrev S32768x16x1 : Shape := ⟨3, ![32768, 16, 1]⟩
abbrev S32768x64x16 : Shape := ⟨3, ![32768, 64, 16]⟩
abbrev S32768 : Shape := ⟨1, ![32768]⟩
abbrev S32768x1 : Shape := ⟨2, ![32768, 1]⟩

abbrev nBuf : Space → Nat
  | .hbm => 86
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024x1024, .f32⟩
  | .hbm, ⟨13, _⟩ => ⟨S32768x1024, .f32⟩
  | .hbm, ⟨14, _⟩ => ⟨S1x1024, .f32⟩
  | .hbm, ⟨15, _⟩ => ⟨S32768x1024, .f32⟩
  | .hbm, ⟨16, _⟩ => ⟨S32768x1024, .f32⟩
  | .hbm, ⟨17, _⟩ => ⟨S32768x16x64, .f32⟩
  | .hbm, ⟨18, _⟩ => ⟨S1024x1024, .f32⟩
  | .hbm, ⟨19, _⟩ => ⟨S32768x1024, .f32⟩
  | .hbm, ⟨20, _⟩ => ⟨S1x1024, .f32⟩
  | .hbm, ⟨21, _⟩ => ⟨S32768x1024, .f32⟩
  | .hbm, ⟨22, _⟩ => ⟨S32768x1024, .f32⟩
  | .hbm, ⟨23, _⟩ => ⟨S32768x16x64, .f32⟩
  | .hbm, ⟨24, _⟩ => ⟨S1024x1024, .f32⟩
  | .hbm, ⟨25, _⟩ => ⟨S32768x1024, .f32⟩
  | .hbm, ⟨26, _⟩ => ⟨S1x1024, .f32⟩
  | .hbm, ⟨27, _⟩ => ⟨S32768x1024, .f32⟩
  | .hbm, ⟨28, _⟩ => ⟨S32768x1024, .f32⟩
  | .hbm, ⟨29, _⟩ => ⟨S32768x16x64, .f32⟩
  | .hbm, ⟨30, _⟩ => ⟨S32768x16x16, .f32⟩
  | .hbm, ⟨31, _⟩ => ⟨S_, .f32⟩
  | .hbm, ⟨32, _⟩ => ⟨S32768x16x16, .f32⟩
  | .hbm, ⟨33, _⟩ => ⟨S32768x16x16, .f32⟩
  | .hbm, ⟨34, _⟩ => ⟨S_, .f32⟩
  | .hbm, ⟨35, _⟩ => ⟨S32768x16, .f32⟩
  | .hbm, ⟨36, _⟩ => ⟨S_, .f32⟩
  | .hbm, ⟨37, _⟩ => ⟨S32768x16, .f32⟩
  | .hbm, ⟨38, _⟩ => ⟨S32768x16, .f32⟩
  | .hbm, ⟨39, _⟩ => ⟨S32768x16x1, .f32⟩
  | .hbm, ⟨40, _⟩ => ⟨S32768x16x16, .f32⟩
  | .hbm, ⟨41, _⟩ => ⟨S32768x16x16, .f32⟩
  | .hbm, ⟨42, _⟩ => ⟨S32768x16x16, .f32⟩
  | .hbm, ⟨43, _⟩ => ⟨S_, .f32⟩
  | .hbm, ⟨44, _⟩ => ⟨S32768x16, .f32⟩
  | .hbm, ⟨45, _⟩ => ⟨S32768x16x1, .f32⟩
  | .hbm, ⟨46, _⟩ => ⟨S32768x16x16, .f32⟩
  | .hbm, ⟨47, _⟩ => ⟨S32768x16x16, .f32⟩
  | .hbm, ⟨48, _⟩ => ⟨S32768x16x64, .f32⟩
  | .hbm, ⟨49, _⟩ => ⟨S32768x64x16, .f32⟩
  | .hbm, ⟨50, _⟩ => ⟨S32768x1024, .f32⟩
  | .hbm, ⟨51, _⟩ => ⟨S1024x1024, .f32⟩
  | .hbm, ⟨52, _⟩ => ⟨S32768x1024, .f32⟩
  | .hbm, ⟨53, _⟩ => ⟨S1x1024, .f32⟩
  | .hbm, ⟨54, _⟩ => ⟨S32768x1024, .f32⟩
  | .hbm, ⟨55, _⟩ => ⟨S32768x1024, .f32⟩
  | .hbm, ⟨56, _⟩ => ⟨S32768x1024, .f32⟩
  | .hbm, ⟨57, _⟩ => ⟨S_, .f32⟩
  | .hbm, ⟨58, _⟩ => ⟨S32768, .f32⟩
  | .hbm, ⟨59, _⟩ => ⟨S32768x1, .f32⟩
  | .hbm, ⟨60, _⟩ => ⟨S_, .f32⟩
  | .hbm, ⟨61, _⟩ => ⟨S32768x1, .f32⟩
  | .hbm, ⟨62, _⟩ => ⟨S32768x1, .f32⟩
  | .hbm, ⟨63, _⟩ => ⟨S32768x1024, .f32⟩
  | .hbm, ⟨64, _⟩ => ⟨S32768x1024, .f32⟩
  | .hbm, ⟨65, _⟩ => ⟨S32768x1024, .f32⟩
  | .hbm, ⟨66, _⟩ => ⟨S_, .f32⟩
  | .hbm, ⟨67, _⟩ => ⟨S32768, .f32⟩
  | .hbm, ⟨68, _⟩ => ⟨S32768x1, .f32⟩
  | .hbm, ⟨69, _⟩ => ⟨S_, .f32⟩
  | .hbm, ⟨70, _⟩ => ⟨S32768x1, .f32⟩
  | .hbm, ⟨71, _⟩ => ⟨S32768x1, .f32⟩
  | .hbm, ⟨72, _⟩ => ⟨S32768x1024, .f32⟩
  | .hbm, ⟨73, _⟩ => ⟨S32768x1024, .f32⟩
  | .hbm, ⟨74, _⟩ => ⟨S_, .f32⟩
  | .hbm, ⟨75, _⟩ => ⟨S32768x1, .f32⟩
  | .hbm, ⟨76, _⟩ => ⟨S32768x1, .f32⟩
  | .hbm, ⟨77, _⟩ => ⟨S32768x1, .f32⟩
  | .hbm, ⟨78, _⟩ => ⟨S32768x1024, .f32⟩
  | .hbm, ⟨79, _⟩ => ⟨S32768x1024, .f32⟩
  | .hbm, ⟨80, _⟩ => ⟨S1x1024, .f32⟩
  | .hbm, ⟨81, _⟩ => ⟨S32768x1024, .f32⟩
  | .hbm, ⟨82, _⟩ => ⟨S32768x1024, .f32⟩
  | .hbm, ⟨83, _⟩ => ⟨S1x1024, .f32⟩
  | .hbm, ⟨84, _⟩ => ⟨S32768x1024, .f32⟩
  | .hbm, ⟨85, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_cst_0 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_3 : Ref sig .tc := ⟨.hbm, 57, rfl⟩
abbrev main_v41 : Ref sig .tc := ⟨.hbm, 58, rfl⟩
abbrev main_v42 : Ref sig .tc := ⟨.hbm, 59, rfl⟩
abbrev main_cst_4 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_5 : Ref sig .tc := ⟨.hbm, 66, rfl⟩
abbrev main_v48 : Ref sig .tc := ⟨.hbm, 67, rfl⟩
abbrev main_v49 : Ref sig .tc := ⟨.hbm, 68, rfl⟩
abbrev main_cst_6 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_7 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  shapeCasts_S32768x1024_S32768x16x64 : S32768x1024.ShapeCasts S32768x16x64
  bcast_S_S32768x16x16 : S_.BroadcastsInDim S32768x16x16 (![] : Fin 0 → Fin S32768x16x16.rank)
  reducesTo_S32768x16x16_S32768x16_d2 : S32768x16x16.ReducesTo [2] S32768x16
  h_S_ : 0 < S_.numel
  bcast_S_S32768x16 : S_.BroadcastsInDim S32768x16 (![] : Fin 0 → Fin S32768x16.rank)
  bcast_S32768x16_S32768x16x1_0_1 : S32768x16.BroadcastsInDim S32768x16x1 (![0, 1] : Fin 2 → Fin S32768x16x1.rank)
  bcast_S32768x16x1_S32768x16x16_0_1_2 : S32768x16x1.BroadcastsInDim S32768x16x16 (![0, 1, 2] : Fin 3 → Fin S32768x16x16.rank)
  transposes_S32768x16x64_S32768x64x16_0_2_1 : S32768x16x64.Transposes [0, 2, 1] S32768x64x16
  shapeCasts_S32768x64x16_S32768x1024 : S32768x64x16.ShapeCasts S32768x1024
  reducesTo_S32768x1024_S32768_d1 : S32768x1024.ReducesTo [1] S32768
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x1024_0_1 : S32768x1.BroadcastsInDim S32768x1024 (![0, 1] : Fin 2 → Fin S32768x1024.rank)
  dot_S32768x1024_S1024x1024_S32768x1024_1_0_0_1_n_n_wf : DotDims.WF S32768x1024 S1024x1024 S32768x1024 [1] [0] [0] [1] [] []
  dot_S32768x16x64_S32768x16x64_S32768x16x16_2_2_1_1_0_0_wf : DotDims.WF S32768x16x64 S32768x16x64 S32768x16x16 [2] [2] [1] [1] [0] [0]
  dot_S32768x16x16_S32768x16x64_S32768x16x64_2_1_1_2_0_0_wf : DotDims.WF S32768x16x16 S32768x16x64 S32768x16x64 [2] [1] [1] [2] [0] [0]

variable [Facts₀]

def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf
def dot_S32768x16x64_S32768x16x64_S32768x16x16_2_2_1_1_0_0 : DotDims S32768x16x64 S32768x16x64 S32768x16x16 where
  lhsContracting := [2]
  rhsContracting := [2]
  lhsNonContracting := [1]
  rhsNonContracting := [1]
  lhsBatch := [0]
  rhsBatch := [0]
  wf := dot_S32768x16x64_S32768x16x64_S32768x16x16_2_2_1_1_0_0_wf
def dot_S32768x16x16_S32768x16x64_S32768x16x64_2_1_1_2_0_0 : DotDims S32768x16x16 S32768x16x64 S32768x16x64 where
  lhsContracting := [2]
  rhsContracting := [1]
  lhsNonContracting := [1]
  rhsNonContracting := [2]
  lhsBatch := [0]
  rhsBatch := [0]
  wf := dot_S32768x16x16_S32768x16x64_S32768x16x64_2_1_1_2_0_0_wf

class Facts : Prop extends Facts₀ where

variable [Facts]
-- ==== Proof.RowSpec.lean ====
/-
  One row of the block, on the extended reals.

  The block maps a row `sa` (1024 numbers) and a row `st` (1024 numbers) to a row of 1024 numbers; different rows
  never meet. With weight matrices `Wq Wk Wv Wo` (each 1024 × 1024, used by rows: output feature `j` pairs row `j`
  of the matrix with the input) and vectors `bq bk bv bo lw lb`:

    q = Wq·sa + bq,   k = Wk·st + bk,   v = Wv·st + bv                       (three affine maps)
    e h g = (∑ d, q (64 h + d) · k (64 g + d)) · (1/8)                       (16 heads of 64 features: head h against head g)
    t h   = the largest of e h 0 … e h 15 (taken from -∞)
    w h g = exp (e h g - t h) / ∑ g', exp (e h g' - t h)                     (weights of head h over the heads)
    o h d = ∑ g, w h g · v (64 g + d)                                        (head h's mixture of the value heads)
    f (16 d + h) = o h d                                                     (flattened feature-major)
    x = Wo·f + bo + sa                                                       (output map and residual)
    y j = (x j - μ) · rsqrt (σ² + ε) · lw j + lb j,  μ = (∑ x)/1024,  σ² = (∑ (x - μ)²)/1024.

  Every operation is the extended reals' own; the float literals stay the words the programs print, and only the
  two that must meet — the word of 1/8 a product uses and the word of 8 a quotient uses — are evaluated.
-/
import Idealize.ShloMosaic.PureOps.Ideal
import Idealize.ShloMosaic.PureOps.Ideal.Laws

noncomputable section

namespace Cert.RowSpec

open Idealize.ShloMosaic

/-- Feature `d` of head `h` sits at position `64 h + d` of a row split into 16 heads of 64 features. -/
def headPos (h : Fin 16) (d : Fin 64) : Fin 1024 :=
  ⟨h.val * 64 + d.val, by have := h.isLt; have := d.isLt; omega⟩

/-- An affine map of a row: output feature `j` is row `j` of the matrix against the input, plus the bias. -/
def affine (x : Fin 1024 → EReal) (W : Fin 1024 → Fin 1024 → EReal) (b : Fin 1024 → EReal) (j : Fin 1024) : EReal :=
  (∑ k : Fin 1024, x k * W j k) + b j

/-- The scaled score of query head `h` against key head `g`: their inner product over the 64 features, times 1/8. -/
def score (q k : Fin 1024 → EReal) (h g : Fin 16) : EReal :=
  (∑ d : Fin 64, q (headPos h d) * k (headPos g d)) * Ideal.ofBits .f32 0x3E000000#32

/-- The largest score of head `h`, the maximum taken from `-∞` (and once more against `-∞`, which changes nothing). -/
def top (e : Fin 16 → Fin 16 → EReal) (h : Fin 16) : EReal :=
  max (Ideal.ofBits .f32 0xFF800000#32)
    ((Finset.univ : Finset (Fin 16)).fold max (Ideal.ofBits .f32 0xFF800000#32) (fun g => e h g))

/-- The exponential of a score's distance below its head's largest score. -/
def lifted (e : Fin 16 → Fin 16 → EReal) (h g : Fin 16) : EReal := Ideal.exp (e h g - top e h)

/-- The weight head `h` gives head `g`: its exponential over the sum of the head's exponentials. -/
def weight (e : Fin 16 → Fin 16 → EReal) (h g : Fin 16) : EReal :=
  Ideal.div (lifted e h g) (∑ g' : Fin 16, lifted e h g')

/-- Head `h`'s mixture of the value heads, feature `d`. -/
def mixed (e : Fin 16 → Fin 16 → EReal) (v : Fin 1024 → EReal) (h : Fin 16) (d : Fin 64) : EReal :=
  ∑ g : Fin 16, weight e h g * v (headPos g d)

/-- The mixtures flattened feature-major: position `16 d + h` holds feature `d` of head `h`. -/
def flat (o : Fin 16 → Fin 64 → EReal) (j : Fin 1024) : EReal :=
  o ⟨j.val % 16, Nat.mod_lt _ (by decide)⟩ ⟨j.val / 16, by have := j.isLt; omega⟩

/-- The mean of a row of 1024 numbers. -/
def mean (x : Fin 1024 → EReal) : EReal :=
  Ideal.div (∑ j : Fin 1024, x j) (Ideal.ofBits .f32 0x44800000#32)

/-- A row centred, scaled by the inverse root of its variance plus ε, then scaled and shifted feature by feature. -/
def layerNorm (x lw lb : Fin 1024 → EReal) (j : Fin 1024) : EReal :=
  (x j - mean x) * Ideal.rsqrt (mean (fun i => (x i - mean x) * (x i - mean x)) + Ideal.ofBits .f32 0x3727C5AC#32)
    * lw j + lb j

/-- The scores of a row: query from `sa`, key from `st`. -/
def scores (sa st : Fin 1024 → EReal) (Wq Wk : Fin 1024 → Fin 1024 → EReal) (bq bk : Fin 1024 → EReal) :
    Fin 16 → Fin 16 → EReal :=
  score (affine sa Wq bq) (affine st Wk bk)

/-- The row before normalisation: the output map of the flattened mixtures, plus the residual `sa`. -/
def pre (sa st : Fin 1024 → EReal) (Wq Wk Wv Wo : Fin 1024 → Fin 1024 → EReal) (bq bk bv bo : Fin 1024 → EReal)
    (j : Fin 1024) : EReal :=
  affine (flat (mixed (scores sa st Wq Wk bq bk) (affine st Wv bv))) Wo bo j + sa j

/-- The whole row. -/
def row (sa st : Fin 1024 → EReal) (Wq Wk Wv Wo : Fin 1024 → Fin 1024 → EReal) (bq bk bv bo lw lb : Fin 1024 → EReal)
    (j : Fin 1024) : EReal :=
  layerNorm (pre sa st Wq Wk Wv Wo bq bk bv bo) lw lb j

/-- The word `0x41000000` denotes 8. -/
theorem ofBits_eight : Ideal.ofBits .f32 0x41000000#32 = ((8 : ℝ) : EReal) := by
  simp [Ideal.ofBits, Ideal.ieee, -EReal.coe_mul]; norm_num

/-- The word `0x3E000000` denotes 1/8. -/
theorem ofBits_eighth : Ideal.ofBits .f32 0x3E000000#32 = ((1 / 8 : ℝ) : EReal) := by
  simp [Ideal.ofBits, Ideal.ieee, -EReal.coe_mul]; norm_num

/-- Dividing by 8 is multiplying by 1/8, on every extended real (the infinities included: 8 is finite and not zero). -/
theorem div_eight (x : EReal) :
    Ideal.div x (Ideal.ofBits .f32 0x41000000#32) = x * Ideal.ofBits .f32 0x3E000000#32 := by
  rw [ofBits_eight, ofBits_eighth]
  exact Ideal.div_coe (by norm_num) x

/-- The word of `-∞` denotes the least extended real. -/
theorem ofBits_negInf : Ideal.ofBits .f32 0xFF800000#32 = (⊥ : EReal) := by simp [Ideal.ofBits, Ideal.ieee]

end Cert.RowSpec

end
-- ==== Proof.KernelDots.lean ====
/-
  The block's three kinds of matrix product, read at an entry, on the extended reals.

  A product accumulated into a zero tile is the plain sum over the contracted axis:
   * a [256,1024] block against a [1024,1024] matrix:  (A·B)(p, j) = ∑ k, A (p, k) · B (k, j);
   * per row p, the heads' features against each other: S (p, h, g) = ∑ d, A (p, h, d) · B (p, g, d)
     (the row axis is a batch axis: rows never meet);
   * per row p, weights against value heads:            O (p, h, d) = ∑ g, A (p, h, g) · B (p, g, d).
  Each is the contraction law of the extended reals' product, with the contracted axis' one coordinate named.
-/
import proofs.«103196_j64029372449400_1_alg».proof.Proof.Gen.KernelIdeal
import Idealize.ShloMosaic.PureOps.Ideal.Laws
import Idealize.ShloMosaic.Lib.ValueIdx

noncomputable section

namespace Cert.KernelDots

open Idealize.ShloMosaic Idealize.ShloMosaic.ValueIdx Cert.KernelIdeal

local notation "D1" => dot_S256x1024_S1024x1024_S256x1024_1_0_0_1_n_n
local notation "D2" => dot_S256x16x64_S256x16x64_S256x16x16_2_2_1_1_0_0
local notation "D3" => dot_S256x16x16_S256x16x64_S256x16x64_2_1_1_2_0_0

/-! ## A block against a matrix -/

theorem d1_lhs0 (i : S256x1024.Idx) (q : (D1).contr.Idx) : ((D1).lhsIdx i q 0).val = (i 0).val := by
  unfold DotDims.lhsIdx
  rw [dif_neg (show ¬(0 : Fin S256x1024.rank) ∈ (D1).lhsBatch by decide), dif_pos (show (0 : Fin S256x1024.rank) ∈ (D1).lhsNonContracting by decide)]
  rfl
theorem d1_lhs1 (i : S256x1024.Idx) (q : (D1).contr.Idx) : ((D1).lhsIdx i q 1).val = (q ⟨0, by decide⟩).val :=
  (D1).lhsIdx_val_of_single rfl i q
theorem d1_rhs0 (i : S256x1024.Idx) (q : (D1).contr.Idx) : ((D1).rhsIdx i q 0).val = (q ⟨0, by decide⟩).val :=
  (D1).rhsIdx_val_of_single rfl i q
theorem d1_rhs1 (i : S256x1024.Idx) (q : (D1).contr.Idx) : ((D1).rhsIdx i q 1).val = (i 1).val := by
  unfold DotDims.rhsIdx
  rw [dif_neg (show ¬(1 : Fin S1024x1024.rank) ∈ (D1).rhsBatch by decide), dif_pos (show (1 : Fin S1024x1024.rank) ∈ (D1).rhsNonContracting by decide)]
  rfl

/-- A [256,1024] block times a [1024,1024] matrix into a zero tile: entry `(p, j)` is `∑ k, A (p, k) · B (k, j)`. -/
theorem blockTimes_apply {φ₁ φ₂ : FTy} (A : FVec Ideal S256x1024 φ₁) (B : FVec Ideal S1024x1024 φ₂) (p : Fin 256) (j : Fin 1024) :
    matmul D1 none A B (constant (F := Ideal) S256x1024 .f32 0x00000000#32) (ix2 p j)
      = ∑ k : Fin 1024, A (ix2 p k) * B (ix2 k j) := by
  show FloatOps.matmul D1 none A B (constant (F := Ideal) S256x1024 .f32 0x00000000#32) (ix2 p j) = _
  rw [Ideal.matmul_constant_zero_apply, ← Equiv.sum_comp (contrEquiv1 D1 1024 rfl rfl).symm]
  refine Finset.sum_congr rfl fun k _ => ?_
  have hk := contrEquiv1_symm_val D1 1024 rfl rfl k
  have el : (D1).lhsIdx (ix2 p j) ((contrEquiv1 D1 1024 rfl rfl).symm k) = ix2 p k := funext fun a => Fin.ext (by
    match a with
    | ⟨0, _⟩ => exact d1_lhs0 _ _
    | ⟨1, _⟩ => exact (d1_lhs1 _ _).trans hk)
  have er : (D1).rhsIdx (ix2 p j) ((contrEquiv1 D1 1024 rfl rfl).symm k) = ix2 k j := funext fun a => Fin.ext (by
    match a with
    | ⟨0, _⟩ => exact (d1_rhs0 _ _).trans hk
    | ⟨1, _⟩ => exact d1_rhs1 _ _)
  rw [el, er]

/-! ## Heads against heads, row by row -/

theorem d2_lhs0 (i : S256x16x16.Idx) (q : (D2).contr.Idx) : ((D2).lhsIdx i q 0).val = (i 0).val := by
  unfold DotDims.lhsIdx
  rw [dif_pos (show (0 : Fin S256x16x64.rank) ∈ (D2).lhsBatch by decide)]
  rfl
theorem d2_lhs1 (i : S256x16x16.Idx) (q : (D2).contr.Idx) : ((D2).lhsIdx i q 1).val = (i 1).val := by
  unfold DotDims.lhsIdx
  rw [dif_neg (show ¬(1 : Fin S256x16x64.rank) ∈ (D2).lhsBatch by decide), dif_pos (show (1 : Fin S256x16x64.rank) ∈ (D2).lhsNonContracting by decide)]
  rfl
theorem d2_lhs2 (i : S256x16x16.Idx) (q : (D2).contr.Idx) : ((D2).lhsIdx i q 2).val = (q ⟨0, by decide⟩).val :=
  (D2).lhsIdx_val_of_single rfl i q
theorem d2_rhs0 (i : S256x16x16.Idx) (q : (D2).contr.Idx) : ((D2).rhsIdx i q 0).val = (i 0).val := by
  unfold DotDims.rhsIdx
  rw [dif_pos (show (0 : Fin S256x16x64.rank) ∈ (D2).rhsBatch by decide)]
  rfl
theorem d2_rhs1 (i : S256x16x16.Idx) (q : (D2).contr.Idx) : ((D2).rhsIdx i q 1).val = (i 2).val := by
  unfold DotDims.rhsIdx
  rw [dif_neg (show ¬(1 : Fin S256x16x64.rank) ∈ (D2).rhsBatch by decide), dif_pos (show (1 : Fin S256x16x64.rank) ∈ (D2).rhsNonContracting by decide)]
  rfl
theorem d2_rhs2 (i : S256x16x16.Idx) (q : (D2).contr.Idx) : ((D2).rhsIdx i q 2).val = (q ⟨0, by decide⟩).val :=
  (D2).rhsIdx_val_of_single rfl i q

/-- Per row, head `h` of `A` against head `g` of `B` over the 64 features: `∑ d, A (p, h, d) · B (p, g, d)`. -/
theorem headsTimes_apply {φ₁ φ₂ : FTy} (A : FVec Ideal S256x16x64 φ₁) (B : FVec Ideal S256x16x64 φ₂) (p : Fin 256) (h g : Fin 16) :
    matmul D2 none A B (constant (F := Ideal) S256x16x16 .f32 0x00000000#32) (ix3 p h g)
      = ∑ d : Fin 64, A (ix3 p h d) * B (ix3 p g d) := by
  show FloatOps.matmul D2 none A B (constant (F := Ideal) S256x16x16 .f32 0x00000000#32) (ix3 p h g) = _
  rw [Ideal.matmul_constant_zero_apply, ← Equiv.sum_comp (contrEquiv1 D2 64 rfl rfl).symm]
  refine Finset.sum_congr rfl fun k _ => ?_
  have hk := contrEquiv1_symm_val D2 64 rfl rfl k
  have el : (D2).lhsIdx (ix3 p h g) ((contrEquiv1 D2 64 rfl rfl).symm k) = ix3 p h k := funext fun a => Fin.ext (by
    match a with
    | ⟨0, _⟩ => exact d2_lhs0 _ _
    | ⟨1, _⟩ => exact d2_lhs1 _ _
    | ⟨2, _⟩ => exact (d2_lhs2 _ _).trans hk)
  have er : (D2).rhsIdx (ix3 p h g) ((contrEquiv1 D2 64 rfl rfl).symm k) = ix3 p g k := funext fun a => Fin.ext (by
    match a with
    | ⟨0, _⟩ => exact d2_rhs0 _ _
    | ⟨1, _⟩ => exact d2_rhs1 _ _
    | ⟨2, _⟩ => exact (d2_rhs2 _ _).trans hk)
  rw [el, er]

/-! ## Weights against value heads, row by row -/

theorem d3_lhs0 (i : S256x16x64.Idx) (q : (D3).contr.Idx) : ((D3).lhsIdx i q 0).val = (i 0).val := by
  unfold DotDims.lhsIdx
  rw [dif_pos (show (0 : Fin S256x16x16.rank) ∈ (D3).lhsBatch by decide)]
  rfl
theorem d3_lhs1 (i : S256x16x64.Idx) (q : (D3).contr.Idx) : ((D3).lhsIdx i q 1).val = (i 1).val := by
  unfold DotDims.lhsIdx
  rw [dif_neg (show ¬(1 : Fin S256x16x16.rank) ∈ (D3).lhsBatch by decide), dif_pos (show (1 : Fin S256x16x16.rank) ∈ (D3).lhsNonContracting by decide)]
  rfl
theorem d3_lhs2 (i : S256x16x64.Idx) (q : (D3).contr.Idx) : ((D3).lhsIdx i q 2).val = (q ⟨0, by decide⟩).val :=
  (D3).lhsIdx_val_of_single rfl i q
theorem d3_rhs0 (i : S256x16x64.Idx) (q : (D3).contr.Idx) : ((D3).rhsIdx i q 0).val = (i 0).val := by
  unfold DotDims.rhsIdx
  rw [dif_pos (show (0 : Fin S256x16x64.rank) ∈ (D3).rhsBatch by decide)]
  rfl
theorem d3_rhs1 (i : S256x16x64.Idx) (q : (D3).contr.Idx) : ((D3).rhsIdx i q 1).val = (q ⟨0, by decide⟩).val :=
  (D3).rhsIdx_val_of_single rfl i q
theorem d3_rhs2 (i : S256x16x64.Idx) (q : (D3).contr.Idx) : ((D3).rhsIdx i q 2).val = (i 2).val := by
  unfold DotDims.rhsIdx
  rw [dif_neg (show ¬(2 : Fin S256x16x64.rank) ∈ (D3).rhsBatch by decide), dif_pos (show (2 : Fin S256x16x64.rank) ∈ (D3).rhsNonContracting by decide)]
  rfl

/-- Per row, head `h`'s weights against the value heads, feature `d`: `∑ g, A (p, h, g) · B (p, g, d)`. -/
theorem weightsTimes_apply {φ₁ φ₂ : FTy} (A : FVec Ideal S256x16x16 φ₁) (B : FVec Ideal S256x16x64 φ₂) (p : Fin 256) (h : Fin 16) (d : Fin 64) :
    matmul D3 none A B (constant (F := Ideal) S256x16x64 .f32 0x00000000#32) (ix3 p h d)
      = ∑ g : Fin 16, A (ix3 p h g) * B (ix3 p g d) := by
  show FloatOps.matmul D3 none A B (constant (F := Ideal) S256x16x64 .f32 0x00000000#32) (ix3 p h d) = _
  rw [Ideal.matmul_constant_zero_apply, ← Equiv.sum_comp (contrEquiv1 D3 16 rfl rfl).symm]
  refine Finset.sum_congr rfl fun k _ => ?_
  have hk := contrEquiv1_symm_val D3 16 rfl rfl k
  have el : (D3).lhsIdx (ix3 p h d) ((contrEquiv1 D3 16 rfl rfl).symm k) = ix3 p h k := funext fun a => Fin.ext (by
    match a with
    | ⟨0, _⟩ => exact d3_lhs0 _ _
    | ⟨1, _⟩ => exact d3_lhs1 _ _
    | ⟨2, _⟩ => exact (d3_lhs2 _ _).trans hk)
  have er : (D3).rhsIdx (ix3 p h d) ((contrEquiv1 D3 16 rfl rfl).symm k) = ix3 p k d := funext fun a => Fin.ext (by
    match a with
    | ⟨0, _⟩ => exact d3_rhs0 _ _
    | ⟨1, _⟩ => exact (d3_rhs1 _ _).trans hk
    | ⟨2, _⟩ => exact d3_rhs2 _ _)
  rw [el, er]

end Cert.KernelDots

end
-- ==== Proof.LibKeepdims.lean ====
/-
  Keep-dimension layout operations and row reductions of a matrix, read at an index given by coordinates.
  A row statistic of an [a, b] matrix (a maximum or a sum along the columns) is a vector of length a; kept as a
  column it is cast to [a, 1] and broadcast back over the b columns. Read at (p, c) each step is the identity on
  the row coordinate: the cast reads the vector at p, the broadcast reads the column at (p, 0), and the reductions
  are the fold of max from the start word, and the sum, over the b entries of row p.
-/
import Idealize.ShloMosaic.Lib.ValueIdx
import Idealize.ShloMosaic.Lib.ValueLayout
import Idealize.ShloMosaic.PureOps.Ideal.Laws

namespace Idealize.ShloMosaic.ValueIdx

open Idealize.ShloMosaic

variable {α : Type}

/-- A vector of length `a` cast to the column shape `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a one-axis reduction along the columns inserts: row `p`, column `k`. -/
theorem lift_cols {a b : ℕ} (h : (⟨2, ![a, b]⟩ : Shape).Reduces [1] ⟨1, ![a]⟩) (p : Fin a) (k : Fin b) :
    h.lift (ix1 p) k = ix2 p k :=
  funext fun ax => Fin.ext (by match ax with | ⟨0, _⟩ => rfl | ⟨1, _⟩ => rfl)

/-- The maximum along the columns of an `[a, b]` matrix at row `p`: the fold of max, from the start word, over the
    row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  have e : (src ∘ h.lift (ix1 p) : Fin b → EReal) = fun k => src (ix2 p k) :=
    funext fun k => congrArg src (lift_cols h p k)
  exact congrArg (fun f : Fin b → EReal => (Finset.univ : Finset (Fin b)).fold max (Ideal.ofBits φ acc) f) e

/-- The sum along the columns of an `[a, b]` matrix at row `p`: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_cols h p k)

end Idealize.ShloMosaic.ValueIdx
-- ==== Proof.KernelLayout.lean ====
/-
  The block's changes of layout and its reductions, read at an index given by coordinates.

  A row of 1024 features is 16 heads of 64 features: position `64 h + d` is feature `d` of head `h`, so the block
  [256,1024] viewed as [256,16,64] reads, at `(p, h, d)`, the block at `(p, 64 h + d)`. A per-head statistic
  [256,16] kept as a column [256,16,1] and repeated over 16 columns reads, at `(p, h, g)`, the statistic at `(p, h)`.
  The maximum and the sum over the last axis of [256,16,16] at `(p, h)` range over the entries `(p, h, g)`. The
  array [256,64,16] flattened to [256,1024] reads, at `(p, j)`, the entry `(p, j / 16, j % 16)`: position
  `16 d + h` is feature `d` of head `h`. All are statements about row-major positions.
-/
import proofs.«103196_j64029372449400_1_alg».proof.Proof.RowSpec
import proofs.«103196_j64029372449400_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelLayout

open Idealize.ShloMosaic Idealize.ShloMosaic.ValueIdx Cert.RowSpec

variable {α : Type}

abbrev R2 : Shape := ⟨2, ![256, 1024]⟩
abbrev R3 : Shape := ⟨3, ![256, 16, 64]⟩
abbrev T3 : Shape := ⟨3, ![256, 64, 16]⟩
abbrev Q3 : Shape := ⟨3, ![256, 16, 16]⟩
abbrev Q2 : Shape := ⟨2, ![256, 16]⟩
abbrev Q1 : Shape := ⟨3, ![256, 16, 1]⟩

/-- The block split into heads reads, at `(p, h, d)`, the block at `(p, 64 h + d)`. -/
theorem splitHeads_apply (x : R2.Idx → α) (hc : R2.ShapeCasts R3) (p : Fin 256) (h : Fin 16) (d : Fin 64) :
    shapeCast R3 x hc (ix3 p h d) = x (ix2 p (headPos h d)) :=
  shapeCast_apply x hc _ _ (by
    rw [Shape.rowMajor_val_two, Shape.rowMajor_val_three]
    show p.val * 1024 + (h.val * 64 + d.val) = (p.val * 16 + h.val) * 64 + d.val
    omega)

/-- A per-head statistic kept as a column reads, at `(p, h, u)`, the statistic at `(p, h)`. -/
theorem keepCol_apply (x : Q2.Idx → α) (hc : Q2.ShapeCasts Q1) (p : Fin 256) (h : Fin 16) (u : Fin 1) :
    shapeCast Q1 x hc (ix3 p h u) = x (ix2 p h) :=
  shapeCast_apply x hc _ _ (by
    have hu : u.val = 0 := by omega
    rw [Shape.rowMajor_val_two, Shape.rowMajor_val_three]
    show p.val * 16 + h.val = (p.val * 16 + h.val) * 1 + u.val
    omega)

/-- The column repeated over 16 columns reads, at `(p, h, g)`, the column at `(p, h, 0)`. -/
theorem repeatCol_apply (x : Q1.Idx → α) (hb : Q1.Broadcasts Q3) (p : Fin 256) (h g : Fin 16) :
    broadcastTo Q3 x hb (ix3 p h g) = x (ix3 p h (0 : Fin 1)) := by
  refine broadcastTo_apply x hb (ix3 p h g) (ix3 p h (0 : Fin 1)) fun ax => ?_
  match ax with
  | ⟨0, _⟩ => rfl
  | ⟨1, _⟩ => rfl
  | ⟨2, _⟩ => rfl

/-- The index a reduction along the last axis of [256,16,16] inserts. -/
theorem lift_last (hr : Q3.Reduces [2] Q2) (p : Fin 256) (h g : Fin 16) : hr.lift (ix2 p h) g = ix3 p h g :=
  funext fun ax => Fin.ext (by match ax with | ⟨0, _⟩ => rfl | ⟨1, _⟩ => rfl | ⟨2, _⟩ => rfl)

/-- The maximum over the last axis at `(p, h)`: the fold of max, from the start word, over the entries `(p, h, g)`. -/
theorem headMax_apply {φ : FTy} (src : FVec Ideal Q3 φ) (acc : BitVec φ.bits) (hr : Q3.Reduces [2] Q2)
    (hφ : FKind.Formats φ) (hacc : acc = FKind.maximumf.neutral φ hφ) (p : Fin 256) (h : Fin 16) :
    multiReduction .maximumf [2] Q2 src acc hr hφ hacc (ix2 p h)
      = (Finset.univ : Finset (Fin 16)).fold max (Ideal.ofBits φ acc) (fun g => src (ix3 p h g)) := by
  refine (Ideal.multiReduction_maximumf_single src acc hr hφ hacc (ix2 p h)).trans ?_
  have e : (src ∘ hr.lift (ix2 p h) : Fin 16 → EReal) = fun g => src (ix3 p h g) :=
    funext fun g => congrArg src (lift_last hr p h g)
  exact congrArg (fun f : Fin 16 → EReal => (Finset.univ : Finset (Fin 16)).fold max (Ideal.ofBits φ acc) f) e

/-- The sum over the last axis at `(p, h)`: the sum of the entries `(p, h, g)`. -/
theorem headSum_apply {φ : FTy} (src : FVec Ideal Q3 φ) (acc : BitVec φ.bits) (hr : Q3.Reduces [2] Q2)
    (hφ : FKind.Formats φ) (hacc : acc = FKind.add.neutral φ hφ) (p : Fin 256) (h : Fin 16) :
    multiReduction .add [2] Q2 src acc hr hφ hacc (ix2 p h) = ∑ g : Fin 16, src (ix3 p h g) := by
  refine (Ideal.multiReduction_add_single src acc hr hφ hacc (ix2 p h)).trans ?_
  exact Finset.sum_congr rfl fun g _ => congrArg src (lift_last hr p h g)

/-- The feature-major array flattened reads, at `(p, j)`, the entry `(p, j / 16, j % 16)`. -/
theorem mergeHeads_apply (x : T3.Idx → α) (hc : T3.ShapeCasts R2) (p : Fin 256) (j : Fin 1024) :
    shapeCast R2 x hc (ix2 p j)
      = x (ix3 p (⟨j.val / 16, by have := j.isLt; omega⟩ : Fin 64) (⟨j.val % 16, Nat.mod_lt _ (by decide)⟩ : Fin 16)) :=
  shapeCast_apply x hc _ _ (by
    rw [Shape.rowMajor_val_two, Shape.rowMajor_val_three]
    show (p.val * 64 + j.val / 16) * 16 + j.val % 16 = p.val * 1024 + j.val
    omega)

end Cert.KernelLayout

end
-- ==== Proof.KernelRow.lean ====
/-
  The block's stages as vector operations, each read at an index as the matching piece of one row's computation.

  The body works on a block of 256 rows at once; every stage keeps the row coordinate `p` fixed, so read at
  `(p, …)` it is the row computation of `RowSpec` applied to row `p` of the block's inputs: the affine maps
  (a product with a matrix handed over transposed, plus a bias row), the 16 × 16 scores of a row's heads, the
  per-head maximum, exponentials and weights, the mixture of the value heads flattened feature-major, the output
  map with the residual, and the normalisation. Changes of float format are the identity on the extended reals.
-/
import proofs.«103196_j64029372449400_1_alg».proof.Proof.Gen.KernelIdeal.Skeleton
import proofs.«103196_j64029372449400_1_alg».proof.Proof.RowSpec
import proofs.«103196_j64029372449400_1_alg».proof.Proof.KernelDots
import proofs.«103196_j64029372449400_1_alg».proof.Proof.KernelLayout
import proofs.«103196_j64029372449400_1_alg».proof.Proof.LibKeepdims
import Idealize.ShloMosaic.Lib.ValueIdx
import Idealize.ShloMosaic.Lib.ValueLayout
import Idealize.ShloMosaic.Lib.Pipeline.Value

noncomputable section

namespace Cert.KernelRow

open Idealize.ShloMosaic Idealize.ShloMosaic.ValueIdx Cert.KernelIdeal Cert.KernelIdeal.Facts₀ Cert.RowSpec Cert.KernelLayout Cert.KernelDots

/-- Row `p` of a block. -/
abbrev rowOf (x : S256x1024.Idx → EReal) (p : Fin 256) : Fin 1024 → EReal := fun k => x (ix2 p k)
/-- A matrix handed over transposed, read back by rows: row `a` is column `a` of what was handed over. -/
abbrev colsOf (w : S1024x1024.Idx → EReal) : Fin 1024 → Fin 1024 → EReal := fun a c => w (ix2 c a)
/-- A vector handed over as a one-row matrix. -/
abbrev vecOf (b : S1x1024.Idx → EReal) : Fin 1024 → EReal := fun a => b (ix2 (0 : Fin 1) a)
/-- The 16 × 16 table of row `p`. -/
abbrev tableOf (e : S256x16x16.Idx → EReal) (p : Fin 256) : Fin 16 → Fin 16 → EReal := fun h g => e (ix3 p h g)

/-! ## An affine map of every row of a block -/

/-- A bias row repeated over the 256 rows. -/
def biasV (b : FVec Ideal S1x1024 .f32) : FVec Ideal S256x1024 .f32 :=
  broadcastTo S256x1024 (shapeCast S1x1024 b shapeCasts_S1x1024_S1x1024 : FVec Ideal S1x1024 .f32) broadcasts_S1x1024_S256x1024

theorem biasV_apply (b : FVec Ideal S1x1024 .f32) (p : Fin 256) (j : Fin 1024) : biasV b (ix2 p j) = vecOf b j := by
  unfold biasV
  refine (broadcastTo_1b_ab_apply _ _ p j).trans ?_
  rw [shapeCast_self]

/-- The block times the (transposed) matrix into a zero tile, plus the bias row. -/
def affV (x : FVec Ideal S256x1024 .bf16) (w : FVec Ideal S1024x1024 .bf16) (b : FVec Ideal S1x1024 .f32) : FVec Ideal S256x1024 .f32 :=
  addf (matmul dot_S256x1024_S1024x1024_S256x1024_1_0_0_1_n_n none x
      (shapeCast S1024x1024 w shapeCasts_S1024x1024_S1024x1024 : FVec Ideal S1024x1024 .bf16) (constant S256x1024 .f32 0x00000000#32))
    (biasV b)

theorem affV_apply (x : FVec Ideal S256x1024 .bf16) (w : FVec Ideal S1024x1024 .bf16) (b : FVec Ideal S1x1024 .f32) (p : Fin 256) (j : Fin 1024) :
    affV x w b (ix2 p j) = affine (rowOf x p) (colsOf w) (vecOf b) j := by
  unfold affV affine
  refine (addf_apply _ _ _).trans ?_
  refine congrArg₂ (· + ·) ?_ (biasV_apply b p j)
  refine (blockTimes_apply _ _ p j).trans ?_
  rw [shapeCast_self]

theorem rowOf_affV (x : FVec Ideal S256x1024 .bf16) (w : FVec Ideal S1024x1024 .bf16) (b : FVec Ideal S1x1024 .f32) (p : Fin 256) :
    rowOf (affV x w b) p = affine (rowOf x p) (colsOf w) (vecOf b) :=
  funext fun j => affV_apply x w b p j

/-! ## Heads and scores -/

/-- A block's rows split into 16 heads of 64 features. -/
def headsV (x : FVec Ideal S256x1024 .f32) : FVec Ideal S256x16x64 .bf16 :=
  truncf .bf16 (shapeCast S256x16x64 x shapeCasts_S256x1024_S256x16x64 : FVec Ideal S256x16x64 .f32) bitsLt_bf16_f32

theorem headsV_apply (x : FVec Ideal S256x1024 .f32) (p : Fin 256) (h : Fin 16) (d : Fin 64) :
    headsV x (ix3 p h d) = x (ix2 p (headPos h d)) := by
  unfold headsV
  exact splitHeads_apply x _ p h d

/-- Per row, every head of `q` against every head of `k`, times the word of 1/8. -/
def scoreV (q k : FVec Ideal S256x16x64 .bf16) : FVec Ideal S256x16x16 .f32 :=
  mulf (matmul dot_S256x16x64_S256x16x64_S256x16x16_2_2_1_1_0_0 none q k (constant S256x16x16 .f32 0x00000000#32))
    (broadcast S256x16x16 (Scalar.ofBits .f32 0x3E000000#32))

theorem scoreV_apply (q k : FVec Ideal S256x1024 .f32) (p : Fin 256) (h g : Fin 16) :
    scoreV (headsV q) (headsV k) (ix3 p h g) = score (rowOf q p) (rowOf k p) h g := by
  unfold scoreV score
  refine (mulf_apply _ _ _).trans ?_
  refine congrArg₂ (· * ·) ?_ rfl
  refine (headsTimes_apply _ _ p h g).trans ?_
  exact Finset.sum_congr rfl fun d _ => congrArg₂ (· * ·) (headsV_apply q p h d) (headsV_apply k p g d)

/-! ## Maximum, exponentials, weights -/

/-- The per-head maximum over the last axis, from `-∞`, and once more against `-∞`. -/
def topV (e : FVec Ideal S256x16x16 .f32) : FVec Ideal S256x16 .f32 :=
  maximumf (broadcast S256x16 (Scalar.ofBits .f32 0xFF800000#32))
    (multiReduction .maximumf [2] S256x16 e 0xFF800000#32 reduces_S256x16x16_S256x16 (.inl rfl) rfl)

theorem topV_apply (e : FVec Ideal S256x16x16 .f32) (p : Fin 256) (h : Fin 16) : topV e (ix2 p h) = top (tableOf e p) h := by
  unfold topV top
  refine (maximumf_apply _ _ _).trans ?_
  refine congrArg₂ max rfl ?_
  exact headMax_apply e _ _ _ _ p h

/-- A per-head statistic kept as a column and repeated over the 16 columns. -/
def spreadV (t : FVec Ideal S256x16 .f32) : FVec Ideal S256x16x16 .f32 :=
  broadcastTo S256x16x16 (shapeCast S256x16x1 t shapeCasts_S256x16_S256x16x1 : FVec Ideal S256x16x1 .f32) broadcasts_S256x16x1_S256x16x16

theorem spreadV_apply (t : FVec Ideal S256x16 .f32) (p : Fin 256) (h g : Fin 16) : spreadV t (ix3 p h g) = t (ix2 p h) :=
  (repeatCol_apply _ _ p h g).trans (keepCol_apply t _ p h 0)

/-- The exponential of each score's distance below its head's maximum. -/
def liftedV (e : FVec Ideal S256x16x16 .f32) : FVec Ideal S256x16x16 .f32 := exp (subf e (spreadV (topV e)))

theorem liftedV_apply (e : FVec Ideal S256x16x16 .f32) (p : Fin 256) (h g : Fin 16) :
    liftedV e (ix3 p h g) = lifted (tableOf e p) h g := by
  unfold liftedV lifted
  show Ideal.exp (e (ix3 p h g) - spreadV (topV e) (ix3 p h g)) = _
  rw [spreadV_apply, topV_apply]

/-- Each exponential over its head's sum of exponentials. -/
def weightV (l : FVec Ideal S256x16x16 .f32) : FVec Ideal S256x16x16 .f32 :=
  divf l (spreadV (multiReduction .add [2] S256x16 l 0x00000000#32 reduces_S256x16x16_S256x16 (.inl rfl) rfl))

theorem weightV_apply (e : FVec Ideal S256x16x16 .f32) (p : Fin 256) (h g : Fin 16) :
    weightV (liftedV e) (ix3 p h g) = weight (tableOf e p) h g := by
  unfold weightV weight
  refine (divf_apply _ _ _).trans ?_
  refine congrArg₂ Ideal.div (liftedV_apply e p h g) ?_
  refine (spreadV_apply _ p h g).trans ?_
  refine (headSum_apply _ _ _ _ _ p h).trans ?_
  exact Finset.sum_congr rfl fun g' _ => liftedV_apply e p h g'

/-! ## Mixing the value heads, flattened feature-major -/

/-- Per row, the weights against the value heads, transposed to feature-major and flattened to a row of 1024. -/
def mixV (a : FVec Ideal S256x16x16 .f32) (v : FVec Ideal S256x16x64 .bf16) : FVec Ideal S256x1024 .f32 :=
  shapeCast S256x1024 (transpose S256x64x16 [0, 2, 1]
      (matmul dot_S256x16x16_S256x16x64_S256x16x64_2_1_1_2_0_0 none (truncf .bf16 a bitsLt_bf16_f32 : FVec Ideal S256x16x16 .bf16) v
        (constant S256x16x64 .f32 0x00000000#32) : FVec Ideal S256x16x64 .f32)
      transposes_S256x16x64_p0_2_1_S256x64x16 : FVec Ideal S256x64x16 .f32) shapeCasts_S256x64x16_S256x1024

theorem mixV_apply (e : FVec Ideal S256x16x16 .f32) (v : FVec Ideal S256x1024 .f32) (p : Fin 256) (j : Fin 1024) :
    mixV (weightV (liftedV e)) (headsV v) (ix2 p j) = flat (mixed (tableOf e p) (rowOf v p)) j := by
  unfold mixV flat mixed
  refine (mergeHeads_apply _ _ p j).trans ?_
  refine (transpose_ix3_021_apply _ _ p _ _).trans ?_
  refine (weightsTimes_apply _ _ p _ _).trans ?_
  exact Finset.sum_congr rfl fun g _ => congrArg₂ (· * ·) (weightV_apply e p _ g) (headsV_apply v p g _)

/-! ## Mean, centring, normalisation -/

/-- The mean of every row, kept as a column. -/
def meanV (x : FVec Ideal S256x1024 .f32) : FVec Ideal S256x1 .f32 :=
  divf (shapeCast S256x1 (multiReduction .add [1] S256 x 0x00000000#32 reduces_S256x1024_S256 (.inl rfl) rfl : FVec Ideal S256 .f32) shapeCasts_S256_S256x1 : FVec Ideal S256x1 .f32)
    (broadcast S256x1 (Scalar.ofBits .f32 0x44800000#32))

theorem meanV_apply (x : FVec Ideal S256x1024 .f32) (p : Fin 256) (u : Fin 1) : meanV x (ix2 p u) = mean (rowOf x p) := by
  unfold meanV mean
  refine (divf_apply _ _ _).trans ?_
  refine congrArg₂ Ideal.div ?_ rfl
  refine (shapeCast_a_a1_apply _ _ p u).trans ?_
  exact rowSum_apply x _ _ _ _ p

/-- Every row minus its mean. -/
def centredV (x : FVec Ideal S256x1024 .f32) : FVec Ideal S256x1024 .f32 :=
  subf x (broadcastTo S256x1024 (meanV x) broadcasts_S256x1_S256x1024)

theorem centredV_apply (x : FVec Ideal S256x1024 .f32) (p : Fin 256) (j : Fin 1024) :
    centredV x (ix2 p j) = x (ix2 p j) - mean (rowOf x p) := by
  unfold centredV
  refine (subf_apply _ _ _).trans ?_
  refine congrArg₂ (· - ·) rfl ?_
  exact (broadcastTo_a1_ab_apply _ _ p j).trans (meanV_apply x p 0)

/-- The inverse root of every row's variance plus ε, kept as a column. -/
def scaleV (x : FVec Ideal S256x1024 .f32) : FVec Ideal S256x1 .f32 :=
  rsqrt (addf (meanV (mulf (centredV x) (centredV x))) (broadcast S256x1 (Scalar.ofBits .f32 0x3727C5AC#32)))

theorem scaleV_apply (x : FVec Ideal S256x1024 .f32) (p : Fin 256) (u : Fin 1) :
    scaleV x (ix2 p u) = Ideal.rsqrt (mean (fun i => (rowOf x p i - mean (rowOf x p)) * (rowOf x p i - mean (rowOf x p)))
      + Ideal.ofBits .f32 0x3727C5AC#32) := by
  unfold scaleV
  show Ideal.rsqrt (meanV (mulf (centredV x) (centredV x)) (ix2 p u) + Ideal.ofBits .f32 0x3727C5AC#32) = _
  rw [meanV_apply]
  have e : rowOf (mulf (centredV x) (centredV x)) p = fun i => (rowOf x p i - mean (rowOf x p)) * (rowOf x p i - mean (rowOf x p)) :=
    funext fun i => (mulf_apply _ _ _).trans (congrArg₂ (· * ·) (centredV_apply x p i) (centredV_apply x p i))
  rw [e]

/-- Centred, scaled, then scaled feature by feature. -/
def normV (x : FVec Ideal S256x1024 .f32) (lw : FVec Ideal S1x1024 .f32) : FVec Ideal S256x1024 .f32 :=
  mulf (mulf (centredV x) (broadcastTo S256x1024 (scaleV x) broadcasts_S256x1_S256x1024)) (biasV lw)

theorem normV_apply (x : FVec Ideal S256x1024 .f32) (lw lb : FVec Ideal S1x1024 .f32) (p : Fin 256) (j : Fin 1024) :
    addf (normV x lw) (biasV lb) (ix2 p j) = layerNorm (rowOf x p) (vecOf lw) (vecOf lb) j := by
  unfold normV layerNorm
  refine (addf_apply _ _ _).trans ?_
  refine congrArg₂ (· + ·) ?_ (biasV_apply lb p j)
  refine (mulf_apply _ _ _).trans ?_
  refine congrArg₂ (· * ·) ?_ (biasV_apply lw p j)
  refine (mulf_apply _ _ _).trans ?_
  refine congrArg₂ (· * ·) (centredV_apply x p j) ?_
  exact (broadcastTo_a1_ab_apply _ _ p j).trans (scaleV_apply x p 0)

/-! ## The whole body -/

/-- The scores of every row of the block. -/
def scoresV (P0 P1 : FVec Ideal S256x1024 .f32) (P2 : FVec Ideal S1024x1024 .bf16) (P3 : FVec Ideal S1x1024 .f32)
    (P4 : FVec Ideal S1024x1024 .bf16) (P5 : FVec Ideal S1x1024 .f32) : FVec Ideal S256x16x16 .f32 :=
  scoreV (headsV (affV (truncf .bf16 P0 bitsLt_bf16_f32) P2 P3)) (headsV (affV (truncf .bf16 P1 bitsLt_bf16_f32) P4 P5))

theorem tableOf_scoresV (P0 P1 : FVec Ideal S256x1024 .f32) (P2 : FVec Ideal S1024x1024 .bf16) (P3 : FVec Ideal S1x1024 .f32)
    (P4 : FVec Ideal S1024x1024 .bf16) (P5 : FVec Ideal S1x1024 .f32) (p : Fin 256) :
    tableOf (scoresV P0 P1 P2 P3 P4 P5) p = scores (rowOf P0 p) (rowOf P1 p) (colsOf P2) (colsOf P4) (vecOf P3) (vecOf P5) := by
  funext h g
  unfold scoresV scores
  refine (scoreV_apply _ _ p h g).trans ?_
  rw [rowOf_affV, rowOf_affV]
  rfl

/-- Every row before normalisation. -/
def preV (P0 P1 : FVec Ideal S256x1024 .f32) (P2 : FVec Ideal S1024x1024 .bf16) (P3 : FVec Ideal S1x1024 .f32)
    (P4 : FVec Ideal S1024x1024 .bf16) (P5 : FVec Ideal S1x1024 .f32) (P6 : FVec Ideal S1024x1024 .bf16) (P7 : FVec Ideal S1x1024 .f32)
    (P8 : FVec Ideal S1024x1024 .bf16) (P9 : FVec Ideal S1x1024 .f32) : FVec Ideal S256x1024 .f32 :=
  addf (affV (truncf .bf16 (mixV (weightV (liftedV (scoresV P0 P1 P2 P3 P4 P5))) (headsV (affV (truncf .bf16 P1 bitsLt_bf16_f32) P6 P7))) bitsLt_bf16_f32) P8 P9) P0

theorem rowOf_preV (P0 P1 : FVec Ideal S256x1024 .f32) (P2 : FVec Ideal S1024x1024 .bf16) (P3 : FVec Ideal S1x1024 .f32)
    (P4 : FVec Ideal S1024x1024 .bf16) (P5 : FVec Ideal S1x1024 .f32) (P6 : FVec Ideal S1024x1024 .bf16) (P7 : FVec Ideal S1x1024 .f32)
    (P8 : FVec Ideal S1024x1024 .bf16) (P9 : FVec Ideal S1x1024 .f32) (p : Fin 256) :
    rowOf (preV P0 P1 P2 P3 P4 P5 P6 P7 P8 P9) p
      = pre (rowOf P0 p) (rowOf P1 p) (colsOf P2) (colsOf P4) (colsOf P6) (colsOf P8) (vecOf P3) (vecOf P5) (vecOf P7) (vecOf P9) := by
  funext j
  unfold preV pre
  refine (addf_apply _ _ _).trans ?_
  refine congrArg₂ (· + ·) ?_ rfl
  refine (affV_apply _ _ _ p j).trans ?_
  have e : rowOf (truncf .bf16 (mixV (weightV (liftedV (scoresV P0 P1 P2 P3 P4 P5))) (headsV (affV (truncf .bf16 P1 bitsLt_bf16_f32) P6 P7))) bitsLt_bf16_f32) p
      = flat (mixed (scores (rowOf P0 p) (rowOf P1 p) (colsOf P2) (colsOf P4) (vecOf P3) (vecOf P5)) (affine (rowOf P1 p) (colsOf P6) (vecOf P7))) := by
    funext j'
    refine (mixV_apply _ _ p j').trans ?_
    rw [tableOf_scoresV, rowOf_affV]
    rfl
  rw [e]

/-- What the body stores. -/
def outV (P0 P1 : FVec Ideal S256x1024 .f32) (P2 : FVec Ideal S1024x1024 .bf16) (P3 : FVec Ideal S1x1024 .f32)
    (P4 : FVec Ideal S1024x1024 .bf16) (P5 : FVec Ideal S1x1024 .f32) (P6 : FVec Ideal S1024x1024 .bf16) (P7 : FVec Ideal S1x1024 .f32)
    (P8 : FVec Ideal S1024x1024 .bf16) (P9 P10 P11 : FVec Ideal S1x1024 .f32) : FVec Ideal S256x1024 .f32 :=
  addf (normV (preV P0 P1 P2 P3 P4 P5 P6 P7 P8 P9) P10) (biasV P11)

/-- The stored block at `(p, j)` is the row computation on row `p` of the loaded blocks. -/
theorem outV_apply (P0 P1 : FVec Ideal S256x1024 .f32) (P2 : FVec Ideal S1024x1024 .bf16) (P3 : FVec Ideal S1x1024 .f32)
    (P4 : FVec Ideal S1024x1024 .bf16) (P5 : FVec Ideal S1x1024 .f32) (P6 : FVec Ideal S1024x1024 .bf16) (P7 : FVec Ideal S1x1024 .f32)
    (P8 : FVec Ideal S1024x1024 .bf16) (P9 P10 P11 : FVec Ideal S1x1024 .f32) (p : Fin 256) (j : Fin 1024) :
    outV P0 P1 P2 P3 P4 P5 P6 P7 P8 P9 P10 P11 (ix2 p j)
      = row (rowOf P0 p) (rowOf P1 p) (colsOf P2) (colsOf P4) (colsOf P6) (colsOf P8) (vecOf P3) (vecOf P5) (vecOf P7) (vecOf P9)
          (vecOf P10) (vecOf P11) j := by
  unfold outV row
  refine (normV_apply _ P10 P11 p j).trans ?_
  rw [rowOf_preV]

/-- The body's stored value is the composition of the stages above. -/
theorem payload_eq (P0 P1 : Vec Ideal S256x1024 .f32) (P2 : Vec Ideal S1024x1024 .bf16) (P3 : Vec Ideal S1x1024 .f32)
    (P4 : Vec Ideal S1024x1024 .bf16) (P5 : Vec Ideal S1x1024 .f32) (P6 : Vec Ideal S1024x1024 .bf16) (P7 : Vec Ideal S1x1024 .f32)
    (P8 : Vec Ideal S1024x1024 .bf16) (P9 P10 P11 : Vec Ideal S1x1024 .f32) :
    Gen.k0_pay1 (Gen.k0_pay7 P0 (Gen.k0_pay3 P1 P6 P7) (Gen.k0_pay4 P0 P1 P2 P3 P4 P5) (Gen.k0_pay5 P0 P1 P2 P3 P4 P5) (Gen.k0_pay6 (F := Ideal)) P8 P9 P10) P11
      = outV P0 P1 P2 P3 P4 P5 P6 P7 P8 P9 P10 P11 := rfl

end Cert.KernelRow

end
-- ==== Proof.Blocks.lean ====
/-
  From blocks to the whole array.

  The grid has 128 points; point `t` works on rows `256 t … 256 t + 255` of the two row inputs and of the output,
  and on the whole of every weight matrix and vector (handed over transposed, or as a one-row matrix, by the host
  operations before the launch). What point `t` writes back at `(p, j)` is the row computation on row `256 t + p` of the
  inputs, feature `j`; the 128 blocks tile the 32768 rows; so the output array ends as the row computation, row by row.
-/
import proofs.«103196_j64029372449400_1_alg».proof.Proof.Gen.KernelIdeal.Value
import proofs.«103196_j64029372449400_1_alg».proof.Proof.KernelRow
import Idealize.ShloMosaic.Lib.Pipeline.Value
import Idealize.ShloMosaic.Lib.StableHlo.Run
import Idealize.ShloMosaic.Lib.ValueIdx
import Idealize.ShloMosaic.Lib.ValueLayout

noncomputable section

namespace Cert.Blocks

open Idealize.ShloMosaic Idealize.ShloMosaic.TcCoe Idealize.SL.Sem Idealize.ShloMosaic.ValueIdx
open Cert.KernelIdeal Cert.KernelIdeal.Gen Cert.RowSpec Cert.KernelRow
open Idealize.ShloMosaic.Pipeline (Dat)

/-- The row computation on row `r` of the argument arrays, feature `j`. -/
def rowAt (x0 x1 : S32768x1024.Idx → EReal) (x2 : S1024x1024.Idx → EReal) (x3 : S1024.Idx → EReal) (x4 : S1024x1024.Idx → EReal)
    (x5 : S1024.Idx → EReal) (x6 : S1024x1024.Idx → EReal) (x7 : S1024.Idx → EReal) (x8 : S1024x1024.Idx → EReal)
    (x9 x10 x11 : S1024.Idx → EReal) (r : Fin 32768) (j : Fin 1024) : EReal :=
  row (fun k => x0 (ix2 r k)) (fun k => x1 (ix2 r k))
    (fun a b => x2 (ix2 a b)) (fun a b => x4 (ix2 a b)) (fun a b => x6 (ix2 a b)) (fun a b => x8 (ix2 a b))
    (fun a => x3 (ix1 a)) (fun a => x5 (ix1 a)) (fun a => x7 (ix1 a)) (fun a => x9 (ix1 a))
    (fun a => x10 (ix1 a)) (fun a => x11 (ix1 a)) j

/-- The whole output array: the row computation, row by row. -/
def whole (x0 x1 : S32768x1024.Idx → EReal) (x2 : S1024x1024.Idx → EReal) (x3 : S1024.Idx → EReal) (x4 : S1024x1024.Idx → EReal)
    (x5 : S1024.Idx → EReal) (x6 : S1024x1024.Idx → EReal) (x7 : S1024.Idx → EReal) (x8 : S1024x1024.Idx → EReal)
    (x9 x10 x11 : S1024.Idx → EReal) : S32768x1024.Idx → EReal :=
  fun i => rowAt x0 x1 x2 x3 x4 x5 x6 x7 x8 x9 x10 x11 ⟨(i 0).val, idx2_lt0 i⟩ ⟨(i 1).val, idx2_lt1 i⟩

variable (m : (ℓ : Loc nD τ sig) → Buf (Elt Ideal) ℓ) (ρ : Dev nD → PrngReg)

/-- The output array as a function of the launch memory's argument arrays. -/
abbrev G (c : Dev nD) : S32768x1024.Idx → EReal :=
  whole (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

theorem hz : (![0, 0] : Fin 2 → Nat) = fun _ => 0 := funext fun a => by fin_cases a <;> rfl

/-- The index maps over the grid: the row windows and the output move one block per point along the rows; every
    other window stays at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_12.index t (0 : Fin 2) = t.val ∧ win0_12.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

/-! ## What the host operations before the launch hand over -/

/-! A weight matrix is handed over transposed (and in a narrower format, the identity here); a vector as a one-row matrix. -/

theorem handed_v1 (c : Dev nD) (k j : Fin 1024) :
    (V m c main_v1 : S1024x1024.Idx → EReal) (ix2 k j) = m ((c : Thread nD τ).loc main_arg2) (ix2 j k) := by
  have e : (V m c main_v1 : S1024x1024.Idx → EReal)
      = truncf .bf16 (transpose S1024x1024 [1, 0] (m ((c : Thread nD τ).loc main_arg2)) transposes_S1024x1024_S1024x1024_1_0 : FVec Ideal S1024x1024 .f32) bitsLt_bf16_f32 := by
    dsimp only [Gen.V, Gen.hostOps0]; after_results
  rw [e]
  exact transpose_ix2_apply _ _ k j

theorem handed_v3 (c : Dev nD) (k j : Fin 1024) :
    (V m c main_v3 : S1024x1024.Idx → EReal) (ix2 k j) = m ((c : Thread nD τ).loc main_arg4) (ix2 j k) := by
  have e : (V m c main_v3 : S1024x1024.Idx → EReal)
      = truncf .bf16 (transpose S1024x1024 [1, 0] (m ((c : Thread nD τ).loc main_arg4)) transposes_S1024x1024_S1024x1024_1_0 : FVec Ideal S1024x1024 .f32) bitsLt_bf16_f32 := by
    dsimp only [Gen.V, Gen.hostOps0]; after_results
  rw [e]
  exact transpose_ix2_apply _ _ k j

theorem handed_v5 (c : Dev nD) (k j : Fin 1024) :
    (V m c main_v5 : S1024x1024.Idx → EReal) (ix2 k j) = m ((c : Thread nD τ).loc main_arg6) (ix2 j k) := by
  have e : (V m c main_v5 : S1024x1024.Idx → EReal)
      = truncf .bf16 (transpose S1024x1024 [1, 0] (m ((c : Thread nD τ).loc main_arg6)) transposes_S1024x1024_S1024x1024_1_0 : FVec Ideal S1024x1024 .f32) bitsLt_bf16_f32 := by
    dsimp only [Gen.V, Gen.hostOps0]; after_results
  rw [e]
  exact transpose_ix2_apply _ _ k j

theorem handed_v7 (c : Dev nD) (k j : Fin 1024) :
    (V m c main_v7 : S1024x1024.Idx → EReal) (ix2 k j) = m ((c : Thread nD τ).loc main_arg8) (ix2 j k) := by
  have e : (V m c main_v7 : S1024x1024.Idx → EReal)
      = truncf .bf16 (transpose S1024x1024 [1, 0] (m ((c : Thread nD τ).loc main_arg8)) transposes_S1024x1024_S1024x1024_1_0 : FVec Ideal S1024x1024 .f32) bitsLt_bf16_f32 := by
    dsimp only [Gen.V, Gen.hostOps0]; after_results
  rw [e]
  exact transpose_ix2_apply _ _ k j

theorem handed_v8 (c : Dev nD) (j : Fin 1024) :
    (V m c main_v8 : S1x1024.Idx → EReal) (ix2 (0 : Fin 1) j) = m ((c : Thread nD τ).loc main_arg3) (ix1 j) := by
  have e : (V m c main_v8 : S1x1024.Idx → EReal) = shapeCast S1x1024 (m ((c : Thread nD τ).loc main_arg3)) shapeCasts_S1024_S1x1024 := by
    dsimp only [Gen.V, Gen.hostOps0]; after_results; rfl
  rw [e]
  exact shapeCast_a_1a_apply _ _ 0 j

theorem handed_v9 (c : Dev nD) (j : Fin 1024) :
    (V m c main_v9 : S1x1024.Idx → EReal) (ix2 (0 : Fin 1) j) = m ((c : Thread nD τ).loc main_arg5) (ix1 j) := by
  have e : (V m c main_v9 : S1x1024.Idx → EReal) = shapeCast S1x1024 (m ((c : Thread nD τ).loc main_arg5)) shapeCasts_S1024_S1x1024 := by
    dsimp only [Gen.V, Gen.hostOps0]; after_results; rfl
  rw [e]
  exact shapeCast_a_1a_apply _ _ 0 j

theorem handed_v10 (c : Dev nD) (j : Fin 1024) :
    (V m c main_v10 : S1x1024.Idx → EReal) (ix2 (0 : Fin 1) j) = m ((c : Thread nD τ).loc main_arg7) (ix1 j) := by
  have e : (V m c main_v10 : S1x1024.Idx → EReal) = shapeCast S1x1024 (m ((c : Thread nD τ).loc main_arg7)) shapeCasts_S1024_S1x1024 := by
    dsimp only [Gen.V, Gen.hostOps0]; after_results; rfl
  rw [e]
  exact shapeCast_a_1a_apply _ _ 0 j

theorem handed_v11 (c : Dev nD) (j : Fin 1024) :
    (V m c main_v11 : S1x1024.Idx → EReal) (ix2 (0 : Fin 1) j) = m ((c : Thread nD τ).loc main_arg9) (ix1 j) := by
  have e : (V m c main_v11 : S1x1024.Idx → EReal) = shapeCast S1x1024 (m ((c : Thread nD τ).loc main_arg9)) shapeCasts_S1024_S1x1024 := by
    dsimp only [Gen.V, Gen.hostOps0]; after_results; rfl
  rw [e]
  exact shapeCast_a_1a_apply _ _ 0 j

theorem handed_v12 (c : Dev nD) (j : Fin 1024) :
    (V m c main_v12 : S1x1024.Idx → EReal) (ix2 (0 : Fin 1) j) = m ((c : Thread nD τ).loc main_arg10) (ix1 j) := by
  have e : (V m c main_v12 : S1x1024.Idx → EReal) = shapeCast S1x1024 (m ((c : Thread nD τ).loc main_arg10)) shapeCasts_S1024_S1x1024 := by
    dsimp only [Gen.V, Gen.hostOps0]; after_results; rfl
  rw [e]
  exact shapeCast_a_1a_apply _ _ 0 j

theorem handed_v13 (c : Dev nD) (j : Fin 1024) :
    (V m c main_v13 : S1x1024.Idx → EReal) (ix2 (0 : Fin 1) j) = m ((c : Thread nD τ).loc main_arg11) (ix1 j) := by
  have e : (V m c main_v13 : S1x1024.Idx → EReal) = shapeCast S1x1024 (m ((c : Thread nD τ).loc main_arg11)) shapeCasts_S1024_S1x1024 := by
    dsimp only [Gen.V, Gen.hostOps0]; after_results; rfl
  rw [e]
  exact shapeCast_a_1a_apply _ _ 0 j

/-! ## The windows' blocks, read by coordinates

A block's index `y` sits at `index × size + y` on each axis; the row windows are at block `t` along the rows, every
other window at block `(0, 0)`. -/

theorem blk_row0 (c : Dev nD) (t : Fin cfg0.N) (p : Fin 256) (k : Fin 1024) (r : Fin 32768) (hr : r.val = t.val * 256 + p.val) :
    iblk m c 0 t (ix2 p k) = m ((c : Thread nD τ).loc main_arg0) (ix2 r k) := by
  show V m c main_arg0 (((cfg0.win 0).blk t).view.emb (ix2 p k)) = _
  rw [V_main_arg0]
  refine congrArg _ (funext fun ax => Fin.ext ?_)
  match ax with
  | ⟨0, _⟩ => show win0_0.index t (0 : Fin 2) * 256 + 1 * p.val = r.val; rw [(idx_facts t).1, hr]; omega
  | ⟨1, _⟩ => show win0_0.index t (1 : Fin 2) * 1024 + 1 * k.val = k.val; rw [(idx_facts t).2.1]; omega

theorem blk_row1 (c : Dev nD) (t : Fin cfg0.N) (p : Fin 256) (k : Fin 1024) (r : Fin 32768) (hr : r.val = t.val * 256 + p.val) :
    iblk m c 1 t (ix2 p k) = m ((c : Thread nD τ).loc main_arg1) (ix2 r k) := by
  show V m c main_arg1 (((cfg0.win 1).blk t).view.emb (ix2 p k)) = _
  rw [V_main_arg1]
  refine congrArg _ (funext fun ax => Fin.ext ?_)
  match ax with
  | ⟨0, _⟩ => show win0_1.index t (0 : Fin 2) * 256 + 1 * p.val = r.val; rw [(idx_facts t).2.2.1, hr]; omega
  | ⟨1, _⟩ => show win0_1.index t (1 : Fin 2) * 1024 + 1 * k.val = k.val; rw [(idx_facts t).2.2.2.1]; omega

theorem blk_mat2 (c : Dev nD) (t : Fin cfg0.N) (k j : Fin 1024) :
    iblk m c 2 t (ix2 k j) = m ((c : Thread nD τ).loc main_arg2) (ix2 j k) := by
  show V m c main_v1 (((cfg0.win 2).blk t).view.emb (ix2 k j)) = _
  have e : ((cfg0.win 2).blk t).view.emb (ix2 k j) = ix2 k j := by
    funext ax; apply Fin.ext
    match ax with
    | ⟨0, _⟩ => show win0_2.index t (0 : Fin 2) * 1024 + 1 * k.val = k.val; rw [(idx_facts t).2.2.2.2.2.2.1]; omega
    | ⟨1, _⟩ => show win0_2.index t (1 : Fin 2) * 1024 + 1 * j.val = j.val; rw [(idx_facts t).2.2.2.2.2.2.2.1]; omega
  rw [e]
  exact handed_v1 m c k j

theorem blk_mat4 (c : Dev nD) (t : Fin cfg0.N) (k j : Fin 1024) :
    iblk m c 4 t (ix2 k j) = m ((c : Thread nD τ).loc main_arg4) (ix2 j k) := by
  show V m c main_v3 (((cfg0.win 4).blk t).view.emb (ix2 k j)) = _
  have e : ((cfg0.win 4).blk t).view.emb (ix2 k j) = ix2 k j := by
    funext ax; apply Fin.ext
    match ax with
    | ⟨0, _⟩ => show win0_4.index t (0 : Fin 2) * 1024 + 1 * k.val = k.val; rw [(idx_facts t).2.2.2.2.2.2.2.2.2.2.1]; omega
    | ⟨1, _⟩ => show win0_4.index t (1 : Fin 2) * 1024 + 1 * j.val = j.val; rw [(idx_facts t).2.2.2.2.2.2.2.2.2.2.2.1]; omega
  rw [e]
  exact handed_v3 m c k j

theorem blk_mat6 (c : Dev nD) (t : Fin cfg0.N) (k j : Fin 1024) :
    iblk m c 6 t (ix2 k j) = m ((c : Thread nD τ).loc main_arg6) (ix2 j k) := by
  show V m c main_v5 (((cfg0.win 6).blk t).view.emb (ix2 k j)) = _
  have e : ((cfg0.win 6).blk t).view.emb (ix2 k j) = ix2 k j := by
    funext ax; apply Fin.ext
    match ax with
    | ⟨0, _⟩ => show win0_6.index t (0 : Fin 2) * 1024 + 1 * k.val = k.val; rw [(idx_facts t).2.2.2.2.2.2.2.2.2.2.2.2.2.2.1]; omega
    | ⟨1, _⟩ => show win0_6.index t (1 : Fin 2) * 1024 + 1 * j.val = j.val; rw [(idx_facts t).2.2.2.2.2.2.2.2.2.2.2.2.2.2.2.1]; omega
  rw [e]
  exact handed_v5 m c k j

theorem blk_mat8 (c : Dev nD) (t : Fin cfg0.N) (k j : Fin 1024) :
    iblk m c 8 t (ix2 k j) = m ((c : Thread nD τ).loc main_arg8) (ix2 j k) := by
  show V m c main_v7 (((cfg0.win 8).blk t).view.emb (ix2 k j)) = _
  have e : ((cfg0.win 8).blk t).view.emb (ix2 k j) = ix2 k j := by
    funext ax; apply Fin.ext
    match ax with
    | ⟨0, _⟩ => show win0_8.index t (0 : Fin 2) * 1024 + 1 * k.val = k.val; rw [(idx_facts t).2.2.2.2.2.2.2.2.2.2.2.2.2.2.2.2.2.2.1]; omega
    | ⟨1, _⟩ => show win0_8.index t (1 : Fin 2) * 1024 + 1 * j.val = j.val; rw [(idx_facts t).2.2.2.2.2.2.2.2.2.2.2.2.2.2.2.2.2.2.2.1]; omega
  rw [e]
  exact handed_v7 m c k j

theorem blk_vec3 (c : Dev nD) (t : Fin cfg0.N) (j : Fin 1024) :
    iblk m c 3 t (ix2 (0 : Fin 1) j) = m ((c : Thread nD τ).loc main_arg3) (ix1 j) := by
  show V m c main_v8 (((cfg0.win 3).blk t).view.emb (ix2 (0 : Fin 1) j)) = _
  have e : ((cfg0.win 3).blk t).view.emb (ix2 (0 : Fin 1) j) = ix2 (0 : Fin 1) j := by
    funext ax; apply Fin.ext
    match ax with
    | ⟨0, _⟩ => show win0_3.index t (0 : Fin 2) * 1 + 1 * 0 = 0; rw [(idx_facts t).2.2.2.2.2.2.2.2.1]
    | ⟨1, _⟩ => show win0_3.index t (1 : Fin 2) * 1024 + 1 * j.val = j.val; rw [(idx_facts t).2.2.2.2.2.2.2.2.2.1]; omega
  rw [e]
  exact handed_v8 m c j

theorem blk_vec5 (c : Dev nD) (t : Fin cfg0.N) (j : Fin 1024) :
    iblk m c 5 t (ix2 (0 : Fin 1) j) = m ((c : Thread nD τ).loc main_arg5) (ix1 j) := by
  show V m c main_v9 (((cfg0.win 5).blk t).view.emb (ix2 (0 : Fin 1) j)) = _
  have e : ((cfg0.win 5).blk t).view.emb (ix2 (0 : Fin 1) j) = ix2 (0 : Fin 1) j := by
    funext ax; apply Fin.ext
    match ax with
    | ⟨0, _⟩ => show win0_5.index t (0 : Fin 2) * 1 + 1 * 0 = 0; rw [(idx_facts t).2.2.2.2.2.2.2.2.2.2.2.2.1]
    | ⟨1, _⟩ => show win0_5.index t (1 : Fin 2) * 1024 + 1 * j.val = j.val; rw [(idx_facts t).2.2.2.2.2.2.2.2.2.2.2.2.2.1]; omega
  rw [e]
  exact handed_v9 m c j

theorem blk_vec7 (c : Dev nD) (t : Fin cfg0.N) (j : Fin 1024) :
    iblk m c 7 t (ix2 (0 : Fin 1) j) = m ((c : Thread nD τ).loc main_arg7) (ix1 j) := by
  show V m c main_v10 (((cfg0.win 7).blk t).view.emb (ix2 (0 : Fin 1) j)) = _
  have e : ((cfg0.win 7).blk t).view.emb (ix2 (0 : Fin 1) j) = ix2 (0 : Fin 1) j := by
    funext ax; apply Fin.ext
    match ax with
    | ⟨0, _⟩ => show win0_7.index t (0 : Fin 2) * 1 + 1 * 0 = 0; rw [(idx_facts t).2.2.2.2.2.2.2.2.2.2.2.2.2.2.2.2.1]
    | ⟨1, _⟩ => show win0_7.index t (1 : Fin 2) * 1024 + 1 * j.val = j.val; rw [(idx_facts t).2.2.2.2.2.2.2.2.2.2.2.2.2.2.2.2.2.1]; omega
  rw [e]
  exact handed_v10 m c j

theorem blk_vec9 (c : Dev nD) (t : Fin cfg0.N) (j : Fin 1024) :
    iblk m c 9 t (ix2 (0 : Fin 1) j) = m ((c : Thread nD τ).loc main_arg9) (ix1 j) := by
  show V m c main_v11 (((cfg0.win 9).blk t).view.emb (ix2 (0 : Fin 1) j)) = _
  have e : ((cfg0.win 9).blk t).view.emb (ix2 (0 : Fin 1) j) = ix2 (0 : Fin 1) j := by
    funext ax; apply Fin.ext
    match ax with
    | ⟨0, _⟩ => show win0_9.index t (0 : Fin 2) * 1 + 1 * 0 = 0; rw [(idx_facts t).2.2.2.2.2.2.2.2.2.2.2.2.2.2.2.2.2.2.2.2.1]
    | ⟨1, _⟩ => show win0_9.index t (1 : Fin 2) * 1024 + 1 * j.val = j.val; rw [(idx_facts t).2.2.2.2.2.2.2.2.2.2.2.2.2.2.2.2.2.2.2.2.2.1]; omega
  rw [e]
  exact handed_v11 m c j

theorem blk_vec10 (c : Dev nD) (t : Fin cfg0.N) (j : Fin 1024) :
    iblk m c 10 t (ix2 (0 : Fin 1) j) = m ((c : Thread nD τ).loc main_arg10) (ix1 j) := by
  show V m c main_v12 (((cfg0.win 10).blk t).view.emb (ix2 (0 : Fin 1) j)) = _
  have e : ((cfg0.win 10).blk t).view.emb (ix2 (0 : Fin 1) j) = ix2 (0 : Fin 1) j := by
    funext ax; apply Fin.ext
    match ax with
    | ⟨0, _⟩ => show win0_10.index t (0 : Fin 2) * 1 + 1 * 0 = 0; rw [(idx_facts t).2.2.2.2.2.2.2.2.2.2.2.2.2.2.2.2.2.2.2.2.2.2.1]
    | ⟨1, _⟩ => show win0_10.index t (1 : Fin 2) * 1024 + 1 * j.val = j.val; rw [(idx_facts t).2.2.2.2.2.2.2.2.2.2.2.2.2.2.2.2.2.2.2.2.2.2.2.1]; omega
  rw [e]
  exact handed_v12 m c j

theorem blk_vec11 (c : Dev nD) (t : Fin cfg0.N) (j : Fin 1024) :
    iblk m c 11 t (ix2 (0 : Fin 1) j) = m ((c : Thread nD τ).loc main_arg11) (ix1 j) := by
  show V m c main_v13 (((cfg0.win 11).blk t).view.emb (ix2 (0 : Fin 1) j)) = _
  have e : ((cfg0.win 11).blk t).view.emb (ix2 (0 : Fin 1) j) = ix2 (0 : Fin 1) j := by
    funext ax; apply Fin.ext
    match ax with
    | ⟨0, _⟩ => show win0_11.index t (0 : Fin 2) * 1 + 1 * 0 = 0; rw [(idx_facts t).2.2.2.2.2.2.2.2.2.2.2.2.2.2.2.2.2.2.2.2.2.2.2.2.1]
    | ⟨1, _⟩ => show win0_11.index t (1 : Fin 2) * 1024 + 1 * j.val = j.val; rw [(idx_facts t).2.2.2.2.2.2.2.2.2.2.2.2.2.2.2.2.2.2.2.2.2.2.2.2.2]; omega
  rw [e]
  exact handed_v13 m c j

/-! ## What a point writes back -/

/-- The row computation depends on its arguments only through their values. -/
theorem row_ext {sa sa' st st' : Fin 1024 → EReal} {Wq Wq' Wk Wk' Wv Wv' Wo Wo' : Fin 1024 → Fin 1024 → EReal}
    {bq bq' bk bk' bv bv' bo bo' lw lw' lb lb' : Fin 1024 → EReal} {j j' : Fin 1024}
    (h0 : sa = sa') (h1 : st = st') (h2 : Wq = Wq') (h4 : Wk = Wk') (h6 : Wv = Wv') (h8 : Wo = Wo')
    (h3 : bq = bq') (h5 : bk = bk') (h7 : bv = bv') (h9 : bo = bo') (h10 : lw = lw') (h11 : lb = lb') (hj : j = j') :
    row sa st Wq Wk Wv Wo bq bk bv bo lw lb j = row sa' st' Wq' Wk' Wv' Wo' bq' bk' bv' bo' lw' lb' j' := by
  subst h0 h1 h2 h4 h6 h8 h3 h5 h7 h9 h10 h11 hj; rfl

/-- Point `t` writes back block `t` of the whole-array function. -/
theorem flushed_eq (c : Dev nD) (t : Fin cfg0.N) :
    (dats m 0 c).flushed 12 t = ((cfg0.win 12).blk t).view.read (Elt Ideal) (G m c) := by
  show (cfg0.win 12).cut (grid0.coords t) ((dats m 0 c).after 12 t) = _
  rw [after0_12]
  unfold out0_12
  rw [View.canon_unit_zero hz]
  simp only [View.ld_unit_zero (S := S256x1024) hz, View.ld_unit_zero (S := S1024x1024) hz, View.ld_unit_zero (S := S1x1024) hz]
  rw [payload_eq]
  funext y
  show outV (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) y = G m c (((cfg0.win 12).blk t).view.emb y)
  obtain ⟨p, j, rfl⟩ : ∃ (p : Fin 256) (j : Fin 1024), y = ix2 p j := ⟨y 0, y 1, eq_ix2 y⟩
  refine (outV_apply _ _ _ _ _ _ _ _ _ _ _ _ p j).trans ?_
  have ht : t.val < 128 := t.isLt
  have er : ((((cfg0.win 12).blk t).view.emb (ix2 p j)) 0).val = t.val * 256 + p.val := by
    show win0_12.index t (0 : Fin 2) * 256 + 1 * p.val = _; rw [(idx_facts t).2.2.2.2.1]; omega
  have ej : ((((cfg0.win 12).blk t).view.emb (ix2 p j)) 1).val = j.val := by
    show win0_12.index t (1 : Fin 2) * 1024 + 1 * j.val = _; rw [(idx_facts t).2.2.2.2.2.1]; omega
  unfold G whole rowAt
  refine row_ext ?_ ?_ ?_ ?_ ?_ ?_ ?_ ?_ ?_ ?_ ?_ ?_ ?_
  · exact funext fun k => blk_row0 m c t p k _ er
  · exact funext fun k => blk_row1 m c t p k _ er
  · exact funext fun a => funext fun b => blk_mat2 m c t b a
  · exact funext fun a => funext fun b => blk_mat4 m c t b a
  · exact funext fun a => funext fun b => blk_mat6 m c t b a
  · exact funext fun a => funext fun b => blk_mat8 m c t b a
  · exact funext fun a => blk_vec3 m c t a
  · exact funext fun a => blk_vec5 m c t a
  · exact funext fun a => blk_vec7 m c t a
  · exact funext fun a => blk_vec9 m c t a
  · exact funext fun a => blk_vec10 m c t a
  · exact funext fun a => blk_vec11 m c t a
  · exact Fin.ext ej.symm

/-! ## The blocks tile the array -/

/-- An index of the output array is in point `t`'s block iff each coordinate is in the block's range on its axis. -/
theorem mem_blk (t : Fin cfg0.N) (i : S32768x1024.Idx) :
    i ∈ ((cfg0.win 12).blk t).view.set ↔ ∀ a : Fin 2, win0_12.index t a * S256x1024.size a ≤ (i a).val ∧ (i a).val < win0_12.index t a * S256x1024.size a + S256x1024.size a := by
  show i ∈ ((View.whole main_v14).slice (win0_12.rect t)).set ↔ _
  rw [View.set_slice_whole, Rect.mem_set_unit]
  exact Iff.rfl

/-- Row `r` lies in the block of point `r / 256`. -/
theorem cover (i : S32768x1024.Idx) : ∃ t : Fin cfg0.N, (cfg0.win 12).flush t = true ∧ i ∈ ((cfg0.win 12).blk t).view.set := by
  have hi0 : (i 0).val < 32768 := idx2_lt0 i
  have hi1 : (i 1).val < 1024 := idx2_lt1 i
  obtain ⟨t, ht⟩ : ∃ t : Fin cfg0.N, t.val = (i 0).val / 256 :=
    ⟨⟨(i 0).val / 256, by show (i 0).val / 256 < 128; omega⟩, rfl⟩
  refine ⟨t, flush0_12 t, ?_⟩
  rw [mem_blk]
  intro a
  match a with
  | ⟨0, _⟩ =>
    show win0_12.index t (0 : Fin 2) * 256 ≤ (i 0).val ∧ (i 0).val < win0_12.index t (0 : Fin 2) * 256 + 256
    rw [(idx_facts t).2.2.2.2.1, ht]; omega
  | ⟨1, _⟩ =>
    show win0_12.index t (1 : Fin 2) * 1024 ≤ (i 1).val ∧ (i 1).val < win0_12.index t (1 : Fin 2) * 1024 + 1024
    rw [(idx_facts t).2.2.2.2.2.1]; omega

/-- The output array after the run is the row computation, row by row. -/
theorem final (c : Dev nD) : (dats m 0 c).arrAt 12 cfg0.N = G m c :=
  (dats m 0 c).arrAt_eq_of_cover 12 (G m c) (fun t _ => flushed_eq m c t) cover

/-- The kernel's run: the result array ends as the row computation of the arguments, row by row; the arguments unchanged. -/
theorem run : θ_run defs (onTc (τ := τ) (main (F := Ideal))) ⟨m, fun _ => 0, ρ⟩ fun r => ∀ c : Dev nD,
      r.2.mem ((c : Thread nD τ).loc main_v14) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Cert.KernelIdeal.Value.run_blocks m ρ)

end Cert.Blocks

end
-- ==== Proof.RefRow.lean ====
/-
  The reference program read one row at a time, on the extended reals.

  Every operation of the reference acts on a row of its two activations independently of the other rows. Read at
  row `r`, each stage of the program is the corresponding piece of the row specification: the three affine maps,
  the scaled head-against-head scores, their largest value per head, the exponentials and their normalisation, the
  mixture of the value heads, the feature-major flattening, the output map with its residual, and the final
  normalisation of the row. The last theorem puts the stages together: the program's result at `(r, j)` is the
  specified row at `j`.
-/
import proofs.«103196_j64029372449400_1_alg».proof.Proof.Gen.ReferenceIdeal.Read
import proofs.«103196_j64029372449400_1_alg».proof.Proof.RowSpec
import Idealize.ShloMosaic.Lib.ValueIdx
import Idealize.ShloMosaic.PureOps.Ideal.Laws

noncomputable section

namespace Cert.RefRow

open Idealize.ShloMosaic Idealize.ShloMosaic.ValueIdx Cert.ReferenceIdeal Cert.ReferenceIdeal.Gen Cert.ReferenceIdeal.Read Cert.RowSpec

/-- Equal summands give equal sums. -/
theorem add_eq {a a' b b' : EReal} (h1 : a = a') (h2 : b = b') : a + b = a' + b' := by rw [h1, h2]

/-! ## The three affine maps

The program transposes each matrix and contracts over the transposed matrix's first axis, which is the matrix's own
second axis: output feature `j` pairs row `j` of the matrix with the input row. -/

/-- The query map at `(r, j)`: row `j` of its matrix against row `r` of the first activation, plus the bias. -/
theorem v4_at (x0 : S32768x1024.Idx → EReal) (x2 : S1024x1024.Idx → EReal) (x3 : S1024.Idx → EReal)
    (r : Fin 32768) (j : Fin 1024) :
    val_main_v4 (F := Ideal) x0 x2 x3 (ix2 r j)
      = affine (fun k => x0 (ix2 r k)) (fun a c => x2 (ix2 a c)) (fun a => x3 (ix1 a)) j := by
  rw [val_main_v4_apply, val_main_v1_apply, val_main_v3_apply, val_main_v2_apply]
  show (∑ k : Fin 1024, _) + _ = _
  unfold affine
  congr 1
  · refine Finset.sum_congr rfl fun k _ => ?_
    rw [val_main_v0_apply]
    have e1 : lidx_main_v1 (ix2 r j) k = ix2 r k :=
      funext fun a => Fin.ext (by match a with | ⟨0, _⟩ => rfl | ⟨1, _⟩ => rfl)
    have e2 : idx_main_v0 (ridx_main_v1 (ix2 r j) k) = ix2 j k :=
      funext fun a => Fin.ext (by match a with | ⟨0, _⟩ => rfl | ⟨1, _⟩ => rfl)
    rw [e1, e2]
  · have e3 : idx_main_v2 (idx_main_v3 (ix2 r j)) = ix1 j :=
      funext fun a => Fin.ext (by match a with | ⟨0, _⟩ => rfl)
    rw [e3]

/-- The key map at `(r, j)`: row `j` of its matrix against row `r` of the second activation, plus the bias. -/
theorem v10_at (x1 : S32768x1024.Idx → EReal) (x4 : S1024x1024.Idx → EReal) (x5 : S1024.Idx → EReal)
    (r : Fin 32768) (j : Fin 1024) :
    val_main_v10 (F := Ideal) x1 x4 x5 (ix2 r j)
      = affine (fun k => x1 (ix2 r k)) (fun a c => x4 (ix2 a c)) (fun a => x5 (ix1 a)) j := by
  rw [val_main_v10_apply, val_main_v7_apply, val_main_v9_apply, val_main_v8_apply]
  show (∑ k : Fin 1024, _) + _ = _
  unfold affine
  congr 1
  · refine Finset.sum_congr rfl fun k _ => ?_
    rw [val_main_v6_apply]
    have e1 : lidx_main_v7 (ix2 r j) k = ix2 r k :=
      funext fun a => Fin.ext (by match a with | ⟨0, _⟩ => rfl | ⟨1, _⟩ => rfl)
    have e2 : idx_main_v6 (ridx_main_v7 (ix2 r j) k) = ix2 j k :=
      funext fun a => Fin.ext (by match a with | ⟨0, _⟩ => rfl | ⟨1, _⟩ => rfl)
    rw [e1, e2]
  · have e3 : idx_main_v8 (idx_main_v9 (ix2 r j)) = ix1 j :=
      funext fun a => Fin.ext (by match a with | ⟨0, _⟩ => rfl)
    rw [e3]

/-- The value map at `(r, j)`: row `j` of its matrix against row `r` of the second activation, plus the bias. -/
theorem v16_at (x1 : S32768x1024.Idx → EReal) (x6 : S1024x1024.Idx → EReal) (x7 : S1024.Idx → EReal)
    (r : Fin 32768) (j : Fin 1024) :
    val_main_v16 (F := Ideal) x1 x6 x7 (ix2 r j)
      = affine (fun k => x1 (ix2 r k)) (fun a c => x6 (ix2 a c)) (fun a => x7 (ix1 a)) j := by
  rw [val_main_v16_apply, val_main_v13_apply, val_main_v15_apply, val_main_v14_apply]
  show (∑ k : Fin 1024, _) + _ = _
  unfold affine
  congr 1
  · refine Finset.sum_congr rfl fun k _ => ?_
    rw [val_main_v12_apply]
    have e1 : lidx_main_v13 (ix2 r j) k = ix2 r k :=
      funext fun a => Fin.ext (by match a with | ⟨0, _⟩ => rfl | ⟨1, _⟩ => rfl)
    have e2 : idx_main_v12 (ridx_main_v13 (ix2 r j) k) = ix2 j k :=
      funext fun a => Fin.ext (by match a with | ⟨0, _⟩ => rfl | ⟨1, _⟩ => rfl)
    rw [e1, e2]
  · have e3 : idx_main_v14 (idx_main_v15 (ix2 r j)) = ix1 j :=
      funext fun a => Fin.ext (by match a with | ⟨0, _⟩ => rfl)
    rw [e3]

/-! ## The split into sixteen heads of sixty-four features -/

/-- The query split into heads: feature `d` of head `h` is position `64 h + d` of the row. -/
theorem v5_at (x0 : S32768x1024.Idx → EReal) (x2 : S1024x1024.Idx → EReal) (x3 : S1024.Idx → EReal)
    (r : Fin 32768) (h : Fin 16) (d : Fin 64) :
    val_main_v5 (F := Ideal) x0 x2 x3 (ix3 r h d)
      = affine (fun k => x0 (ix2 r k)) (fun a c => x2 (ix2 a c)) (fun a => x3 (ix1 a)) (headPos h d) := by
  have e : idx_main_v5 (ix3 r h d) = ix2 r (headPos h d) := by
    funext a; apply Fin.ext
    have hr := r.isLt; have hh := h.isLt; have hd := d.isLt
    match a with
    | ⟨0, _⟩ => show ((r.val * 16 + h.val) * 64 + d.val) / 1024 = r.val; omega
    | ⟨1, _⟩ => show ((r.val * 16 + h.val) * 64 + d.val) % 1024 = h.val * 64 + d.val; omega
  rw [val_main_v5_apply, e, v4_at]

/-- The key split into heads: feature `d` of head `h` is position `64 h + d` of the row. -/
theorem v11_at (x1 : S32768x1024.Idx → EReal) (x4 : S1024x1024.Idx → EReal) (x5 : S1024.Idx → EReal)
    (r : Fin 32768) (h : Fin 16) (d : Fin 64) :
    val_main_v11 (F := Ideal) x1 x4 x5 (ix3 r h d)
      = affine (fun k => x1 (ix2 r k)) (fun a c => x4 (ix2 a c)) (fun a => x5 (ix1 a)) (headPos h d) := by
  have e : idx_main_v11 (ix3 r h d) = ix2 r (headPos h d) := by
    funext a; apply Fin.ext
    have hr := r.isLt; have hh := h.isLt; have hd := d.isLt
    match a with
    | ⟨0, _⟩ => show ((r.val * 16 + h.val) * 64 + d.val) / 1024 = r.val; omega
    | ⟨1, _⟩ => show ((r.val * 16 + h.val) * 64 + d.val) % 1024 = h.val * 64 + d.val; omega
  rw [val_main_v11_apply, e, v10_at]

/-- The value split into heads: feature `d` of head `h` is position `64 h + d` of the row. -/
theorem v17_at (x1 : S32768x1024.Idx → EReal) (x6 : S1024x1024.Idx → EReal) (x7 : S1024.Idx → EReal)
    (r : Fin 32768) (h : Fin 16) (d : Fin 64) :
    val_main_v17 (F := Ideal) x1 x6 x7 (ix3 r h d)
      = affine (fun k => x1 (ix2 r k)) (fun a c => x6 (ix2 a c)) (fun a => x7 (ix1 a)) (headPos h d) := by
  have e : idx_main_v17 (ix3 r h d) = ix2 r (headPos h d) := by
    funext a; apply Fin.ext
    have hr := r.isLt; have hh := h.isLt; have hd := d.isLt
    match a with
    | ⟨0, _⟩ => show ((r.val * 16 + h.val) * 64 + d.val) / 1024 = r.val; omega
    | ⟨1, _⟩ => show ((r.val * 16 + h.val) * 64 + d.val) % 1024 = h.val * 64 + d.val; omega
  rw [val_main_v17_apply, e, v16_at]

/-! ## The scores of a row -/

/-- The scores of row `r`: query from the first activation, key from the second. -/
abbrev eRow (x0 x1 : S32768x1024.Idx → EReal) (x2 : S1024x1024.Idx → EReal) (x3 : S1024.Idx → EReal)
    (x4 : S1024x1024.Idx → EReal) (x5 : S1024.Idx → EReal) (r : Fin 32768) : Fin 16 → Fin 16 → EReal :=
  scores (fun k => x0 (ix2 r k)) (fun k => x1 (ix2 r k)) (fun a c => x2 (ix2 a c)) (fun a c => x4 (ix2 a c))
    (fun a => x3 (ix1 a)) (fun a => x5 (ix1 a))

/-- The value features of row `r`. -/
abbrev vRow (x1 : S32768x1024.Idx → EReal) (x6 : S1024x1024.Idx → EReal) (x7 : S1024.Idx → EReal) (r : Fin 32768) :
    Fin 1024 → EReal :=
  affine (fun k => x1 (ix2 r k)) (fun a c => x6 (ix2 a c)) (fun a => x7 (ix1 a))

/-- The scaled score of head `h` against head `g`: the inner product over the 64 features, divided by 8, which is
    the product with 1/8. -/
theorem v20_at (x0 x1 : S32768x1024.Idx → EReal) (x2 : S1024x1024.Idx → EReal) (x3 : S1024.Idx → EReal)
    (x4 : S1024x1024.Idx → EReal) (x5 : S1024.Idx → EReal) (r : Fin 32768) (h g : Fin 16) :
    val_main_v20 (F := Ideal) x0 x1 x2 x3 x4 x5 (ix3 r h g) = eRow x0 x1 x2 x3 x4 x5 r h g := by
  rw [val_main_v20_apply, val_main_v19_apply, val_main_cst_apply, val_main_v18_apply,
    Ideal.hostDivf_def, Ideal.ofBits_def, div_eight]
  show _ = score _ _ h g
  unfold score
  congr 1
  refine Finset.sum_congr rfl fun d _ => ?_
  have e1 : lidx_main_v18 (ix3 r h g) d = ix3 r h d := funext fun a => Fin.ext (by match a with | ⟨0, _⟩ => rfl | ⟨1, _⟩ => rfl | ⟨2, _⟩ => rfl)
  have e2 : ridx_main_v18 (ix3 r h g) d = ix3 r g d := funext fun a => Fin.ext (by match a with | ⟨0, _⟩ => rfl | ⟨1, _⟩ => rfl | ⟨2, _⟩ => rfl)
  rw [e1, e2, v5_at, v11_at]

/-! ## The largest score of each head -/

/-- Dropping the last axis of the score array leaves the (row, head) array. -/
theorem red16 : S32768x16x16.Reduces [2] S32768x16 := by decide

/-- The (row, head) index with `k` put back on the dropped axis is (row, head, k). -/
theorem lift16 (r : Fin 32768) (h : Fin 16) (k : Fin (S32768x16x16.size 2)) :
    red16.lift (ix2 r h) k = ix3 r h (⟨k.val, k.isLt⟩ : Fin 16) := by
  funext c; apply Fin.ext
  fin_cases c <;> rfl

/-- A maximum-reduction of a (row, head, head) array over its last axis, read at (row, head): the fold of `max`, from
    the initial scalar, over that head's sixteen entries. -/
theorem hostMax_at (x : S32768x16x16.Idx → EReal) (init : S_.Idx → EReal) (r : Fin 32768) (h : Fin 16) :
    Host.reduce (FloatOps.maximumf (F := Ideal) (φ := .f32)) x init reducesTo_S32768x16x16_S32768x16_d2 h_S_ (ix2 r h)
      = (Finset.univ : Finset (Fin 16)).fold max (init (Shape.Idx.first h_S_)) (fun g => x (ix3 r h g)) := by
  rw [Host.reduce_eq_fold_single (FloatOps.maximumf (F := Ideal) (φ := .f32)) x init
    reducesTo_S32768x16x16_S32768x16_d2 red16 h_S_ (ix2 r h)]
  have hf : (x ∘ red16.lift (ix2 r h)) = fun g : Fin 16 => x (ix3 r h g) :=
    funext fun k => congrArg x (lift16 r h k)
  exact congrArg (fun f => Finset.fold max (init (Shape.Idx.first h_S_)) f (Finset.univ : Finset (Fin 16))) hf

/-- The maximum-reduction over the last axis, from `-∞`, is the fold of `max` over head `h`'s sixteen scores. -/
theorem v21_at (x0 x1 : S32768x1024.Idx → EReal) (x2 : S1024x1024.Idx → EReal) (x3 : S1024.Idx → EReal)
    (x4 : S1024x1024.Idx → EReal) (x5 : S1024.Idx → EReal) (r : Fin 32768) (h : Fin 16) :
    val_main_v21 (F := Ideal) x0 x1 x2 x3 x4 x5 (ix2 r h)
      = (Finset.univ : Finset (Fin 16)).fold max (Ideal.ofBits .f32 0xFF800000#32)
          (fun g => eRow x0 x1 x2 x3 x4 x5 r h g) := by
  have hf : (fun g : Fin 16 => val_main_v20 (F := Ideal) x0 x1 x2 x3 x4 x5 (ix3 r h g))
      = fun g : Fin 16 => eRow x0 x1 x2 x3 x4 x5 r h g := funext fun g => v20_at x0 x1 x2 x3 x4 x5 r h g
  exact (hostMax_at (val_main_v20 (F := Ideal) x0 x1 x2 x3 x4 x5) (val_main_cst_0 (F := Ideal)) r h).trans
    (congrArg (fun f => Finset.fold max (Ideal.ofBits .f32 0xFF800000#32) f (Finset.univ : Finset (Fin 16))) hf)

/-- The largest score of head `h`, taken once more against `-∞`. -/
theorem v23_at (x0 x1 : S32768x1024.Idx → EReal) (x2 : S1024x1024.Idx → EReal) (x3 : S1024.Idx → EReal)
    (x4 : S1024x1024.Idx → EReal) (x5 : S1024.Idx → EReal) (r : Fin 32768) (h : Fin 16) :
    val_main_v23 (F := Ideal) x0 x1 x2 x3 x4 x5 (ix2 r h) = top (eRow x0 x1 x2 x3 x4 x5 r) h := by
  rw [val_main_v23_apply, val_main_v22_apply, val_main_cst_1_apply, v21_at]
  rfl

/-! ## The weights and the mixture of the value heads -/

/-- The exponential of a score's distance below its head's largest score. -/
theorem v27_at (x0 x1 : S32768x1024.Idx → EReal) (x2 : S1024x1024.Idx → EReal) (x3 : S1024.Idx → EReal)
    (x4 : S1024x1024.Idx → EReal) (x5 : S1024.Idx → EReal) (r : Fin 32768) (h g : Fin 16) :
    val_main_v27 (F := Ideal) x0 x1 x2 x3 x4 x5 (ix3 r h g) = lifted (eRow x0 x1 x2 x3 x4 x5 r) h g := by
  have e : idx_main_v24 (idx_main_v25 (ix3 r h g)) = ix2 r h := funext fun a => Fin.ext (by match a with | ⟨0, _⟩ => rfl | ⟨1, _⟩ => rfl)
  rw [val_main_v27_apply, val_main_v26_apply, val_main_v25_apply, val_main_v24_apply, e, v20_at, v23_at]
  rfl

/-- The sum of head `h`'s exponentials: the reduction starts from zero. -/
theorem v28_at (x0 x1 : S32768x1024.Idx → EReal) (x2 : S1024x1024.Idx → EReal) (x3 : S1024.Idx → EReal)
    (x4 : S1024x1024.Idx → EReal) (x5 : S1024.Idx → EReal) (r : Fin 32768) (h : Fin 16) :
    val_main_v28 (F := Ideal) x0 x1 x2 x3 x4 x5 (ix2 r h) = ∑ g' : Fin 16, lifted (eRow x0 x1 x2 x3 x4 x5 r) h g' := by
  rw [val_main_v28_apply, val_main_cst_2_apply, Ideal.ofBits_def, Ideal.ofBits_zero_f32, zero_add]
  refine Finset.sum_congr rfl fun k _ => ?_
  have e : idx_main_v28 (ix2 r h) k = ix3 r h k := funext fun a => Fin.ext (by match a with | ⟨0, _⟩ => rfl | ⟨1, _⟩ => rfl | ⟨2, _⟩ => rfl)
  rw [e, v27_at]

/-- The weight head `h` gives head `g`. -/
theorem v31_at (x0 x1 : S32768x1024.Idx → EReal) (x2 : S1024x1024.Idx → EReal) (x3 : S1024.Idx → EReal)
    (x4 : S1024x1024.Idx → EReal) (x5 : S1024.Idx → EReal) (r : Fin 32768) (h g : Fin 16) :
    val_main_v31 (F := Ideal) x0 x1 x2 x3 x4 x5 (ix3 r h g) = weight (eRow x0 x1 x2 x3 x4 x5 r) h g := by
  have e : idx_main_v29 (idx_main_v30 (ix3 r h g)) = ix2 r h := funext fun a => Fin.ext (by match a with | ⟨0, _⟩ => rfl | ⟨1, _⟩ => rfl)
  rw [val_main_v31_apply, val_main_v30_apply, val_main_v29_apply, e, v27_at, v28_at]
  rfl

/-- Head `h`'s mixture of the value heads, feature `d`. -/
theorem v32_at (x0 x1 : S32768x1024.Idx → EReal) (x2 : S1024x1024.Idx → EReal) (x3 : S1024.Idx → EReal)
    (x4 : S1024x1024.Idx → EReal) (x5 : S1024.Idx → EReal) (x6 : S1024x1024.Idx → EReal) (x7 : S1024.Idx → EReal) (r : Fin 32768) (h : Fin 16) (d : Fin 64) :
    val_main_v32 (F := Ideal) x0 x1 x2 x3 x4 x5 x6 x7 (ix3 r h d) = mixed (eRow x0 x1 x2 x3 x4 x5 r) (vRow x1 x6 x7 r) h d := by
  rw [val_main_v32_apply]
  unfold mixed
  refine Finset.sum_congr rfl fun g _ => ?_
  have e1 : lidx_main_v32 (ix3 r h d) g = ix3 r h g := funext fun a => Fin.ext (by match a with | ⟨0, _⟩ => rfl | ⟨1, _⟩ => rfl | ⟨2, _⟩ => rfl)
  have e2 : ridx_main_v32 (ix3 r h d) g = ix3 r g d := funext fun a => Fin.ext (by match a with | ⟨0, _⟩ => rfl | ⟨1, _⟩ => rfl | ⟨2, _⟩ => rfl)
  rw [e1, e2, v31_at, v17_at]

/-! ## The flattening, the output map and the residual -/

/-- The mixtures transposed to (feature, head) and flattened: position `j` holds feature `j / 16` of head `j % 16`. -/
theorem v34_at (x0 x1 : S32768x1024.Idx → EReal) (x2 : S1024x1024.Idx → EReal) (x3 : S1024.Idx → EReal)
    (x4 : S1024x1024.Idx → EReal) (x5 : S1024.Idx → EReal) (x6 : S1024x1024.Idx → EReal) (x7 : S1024.Idx → EReal) (r : Fin 32768) (j : Fin 1024) :
    val_main_v34 (F := Ideal) x0 x1 x2 x3 x4 x5 x6 x7 (ix2 r j) = flat (mixed (eRow x0 x1 x2 x3 x4 x5 r) (vRow x1 x6 x7 r)) j := by
  have e : idx_main_v33 (idx_main_v34 (ix2 r j))
      = ix3 r (⟨j.val % 16, Nat.mod_lt _ (by decide)⟩ : Fin 16) (⟨j.val / 16, by have := j.isLt; omega⟩ : Fin 64) := by
    funext a; apply Fin.ext
    have hr := r.isLt; have hj := j.isLt
    match a with
    | ⟨0, _⟩ => show (r.val * 1024 + j.val) / 1024 = r.val; omega
    | ⟨1, _⟩ => show (r.val * 1024 + j.val) % 16 = j.val % 16; omega
    | ⟨2, _⟩ => show (r.val * 1024 + j.val) / 16 % 64 = j.val / 16; omega
  rw [val_main_v34_apply, val_main_v33_apply, e, v32_at]
  rfl

/-- The row before normalisation. -/
abbrev pRow (x0 x1 : S32768x1024.Idx → EReal) (x2 : S1024x1024.Idx → EReal) (x3 : S1024.Idx → EReal)
    (x4 : S1024x1024.Idx → EReal) (x5 : S1024.Idx → EReal) (x6 : S1024x1024.Idx → EReal) (x7 : S1024.Idx → EReal)
    (x8 : S1024x1024.Idx → EReal) (x9 : S1024.Idx → EReal) (r : Fin 32768) : Fin 1024 → EReal :=
  pre (fun k => x0 (ix2 r k)) (fun k => x1 (ix2 r k)) (fun a c => x2 (ix2 a c)) (fun a c => x4 (ix2 a c))
    (fun a c => x6 (ix2 a c)) (fun a c => x8 (ix2 a c)) (fun a => x3 (ix1 a)) (fun a => x5 (ix1 a))
    (fun a => x7 (ix1 a)) (fun a => x9 (ix1 a))

/-- The output map of the flattened mixtures, plus its bias, plus the residual. -/
theorem v40_at (x0 x1 : S32768x1024.Idx → EReal) (x2 : S1024x1024.Idx → EReal) (x3 : S1024.Idx → EReal)
    (x4 : S1024x1024.Idx → EReal) (x5 : S1024.Idx → EReal) (x6 : S1024x1024.Idx → EReal) (x7 : S1024.Idx → EReal)
    (x8 : S1024x1024.Idx → EReal) (x9 : S1024.Idx → EReal) (r : Fin 32768) (j : Fin 1024) :
    val_main_v40 (F := Ideal) x0 x1 x2 x3 x4 x5 x6 x7 x8 x9 (ix2 r j) = pRow x0 x1 x2 x3 x4 x5 x6 x7 x8 x9 r j := by
  rw [val_main_v40_apply, val_main_v39_apply, val_main_v36_apply, val_main_v38_apply, val_main_v37_apply]
  show ((∑ k : Fin 1024, _) + _) + _ = ((∑ k : Fin 1024, _ * _) + _) + _
  refine add_eq (add_eq (Finset.sum_congr rfl fun k _ => ?_) ?_) rfl
  · rw [val_main_v35_apply]
    have e1 : lidx_main_v36 (ix2 r j) k = ix2 r k := funext fun a => Fin.ext (by match a with | ⟨0, _⟩ => rfl | ⟨1, _⟩ => rfl)
    have e2 : idx_main_v35 (ridx_main_v36 (ix2 r j) k) = ix2 j k := funext fun a => Fin.ext (by match a with | ⟨0, _⟩ => rfl | ⟨1, _⟩ => rfl)
    rw [e1, e2, v34_at]
  · have e3 : idx_main_v37 (idx_main_v38 (ix2 r j)) = ix1 j := funext fun a => Fin.ext (by match a with | ⟨0, _⟩ => rfl)
    rw [e3]

/-! ## The normalisation of the row -/

/-- The mean of the row: its sum from zero, divided by 1024. -/
theorem v44_at (x0 x1 : S32768x1024.Idx → EReal) (x2 : S1024x1024.Idx → EReal) (x3 : S1024.Idx → EReal)
    (x4 : S1024x1024.Idx → EReal) (x5 : S1024.Idx → EReal) (x6 : S1024x1024.Idx → EReal) (x7 : S1024.Idx → EReal)
    (x8 : S1024x1024.Idx → EReal) (x9 : S1024.Idx → EReal) (r : Fin 32768) :
    val_main_v44 (F := Ideal) x0 x1 x2 x3 x4 x5 x6 x7 x8 x9 (ix2 r (0 : Fin 1)) = mean (pRow x0 x1 x2 x3 x4 x5 x6 x7 x8 x9 r) := by
  have e : idx_main_v42 (ix2 r (0 : Fin 1)) = ix1 r := funext fun a => Fin.ext (by match a with | ⟨0, _⟩ => rfl)
  rw [val_main_v44_apply, val_main_v43_apply, val_main_cst_4_apply, val_main_v42_apply, e, val_main_v41_apply,
    val_main_cst_3_apply, Ideal.ofBits_def, Ideal.ofBits_def, Ideal.ofBits_zero_f32, zero_add, Ideal.hostDivf_def]
  unfold mean
  refine congrArg (fun s => Ideal.div s (Ideal.ofBits .f32 0x44800000#32)) (Finset.sum_congr rfl fun k _ => ?_)
  have e1 : idx_main_v41 (ix1 r) k = ix2 r k := funext fun a => Fin.ext (by match a with | ⟨0, _⟩ => rfl | ⟨1, _⟩ => rfl)
  rw [e1, v40_at]

/-- The row centred at `(r, j)`, as the variance's sum reads it. -/
theorem v46_at (x0 x1 : S32768x1024.Idx → EReal) (x2 : S1024x1024.Idx → EReal) (x3 : S1024.Idx → EReal)
    (x4 : S1024x1024.Idx → EReal) (x5 : S1024.Idx → EReal) (x6 : S1024x1024.Idx → EReal) (x7 : S1024.Idx → EReal)
    (x8 : S1024x1024.Idx → EReal) (x9 : S1024.Idx → EReal) (r : Fin 32768) (j : Fin 1024) :
    val_main_v46 (F := Ideal) x0 x1 x2 x3 x4 x5 x6 x7 x8 x9 (ix2 r j)
      = pRow x0 x1 x2 x3 x4 x5 x6 x7 x8 x9 r j - mean (pRow x0 x1 x2 x3 x4 x5 x6 x7 x8 x9 r) := by
  have e : idx_main_v45 (ix2 r j) = ix2 r (0 : Fin 1) := funext fun a => Fin.ext (by match a with | ⟨0, _⟩ => rfl | ⟨1, _⟩ => rfl)
  rw [val_main_v46_apply, val_main_v45_apply, e, v40_at, v44_at]
  rfl

/-- The variance of the row: the mean of the squared centred row. -/
theorem v51_at (x0 x1 : S32768x1024.Idx → EReal) (x2 : S1024x1024.Idx → EReal) (x3 : S1024.Idx → EReal)
    (x4 : S1024x1024.Idx → EReal) (x5 : S1024.Idx → EReal) (x6 : S1024x1024.Idx → EReal) (x7 : S1024.Idx → EReal)
    (x8 : S1024x1024.Idx → EReal) (x9 : S1024.Idx → EReal) (r : Fin 32768) :
    val_main_v51 (F := Ideal) x0 x1 x2 x3 x4 x5 x6 x7 x8 x9 (ix2 r (0 : Fin 1))
      = mean (fun i => (pRow x0 x1 x2 x3 x4 x5 x6 x7 x8 x9 r i - mean (pRow x0 x1 x2 x3 x4 x5 x6 x7 x8 x9 r))
          * (pRow x0 x1 x2 x3 x4 x5 x6 x7 x8 x9 r i - mean (pRow x0 x1 x2 x3 x4 x5 x6 x7 x8 x9 r))) := by
  have e : idx_main_v49 (ix2 r (0 : Fin 1)) = ix1 r := funext fun a => Fin.ext (by match a with | ⟨0, _⟩ => rfl)
  rw [val_main_v51_apply, val_main_v50_apply, val_main_cst_6_apply, val_main_v49_apply, e, val_main_v48_apply,
    val_main_cst_5_apply, Ideal.ofBits_def, Ideal.ofBits_def, Ideal.ofBits_zero_f32, zero_add, Ideal.hostDivf_def]
  unfold mean
  refine congrArg (fun s => Ideal.div s (Ideal.ofBits .f32 0x44800000#32)) (Finset.sum_congr rfl fun k _ => ?_)
  have e1 : idx_main_v48 (ix1 r) k = ix2 r k := funext fun a => Fin.ext (by match a with | ⟨0, _⟩ => rfl | ⟨1, _⟩ => rfl)
  rw [e1, val_main_v47_apply, v46_at]
  rfl

/-- The program's result at `(r, j)`: the centred row scaled by the inverse root of the variance plus ε, then scaled
    and shifted feature by feature. -/
theorem v64_at (x0 x1 : S32768x1024.Idx → EReal) (x2 : S1024x1024.Idx → EReal) (x3 : S1024.Idx → EReal)
    (x4 : S1024x1024.Idx → EReal) (x5 : S1024.Idx → EReal) (x6 : S1024x1024.Idx → EReal) (x7 : S1024.Idx → EReal)
    (x8 : S1024x1024.Idx → EReal) (x9 : S1024.Idx → EReal) (x10 x11 : S1024.Idx → EReal) (r : Fin 32768) (j : Fin 1024) :
    val_main_v64 (F := Ideal) x0 x1 x2 x3 x4 x5 x6 x7 x8 x9 x10 x11 (ix2 r j)
      = layerNorm (pRow x0 x1 x2 x3 x4 x5 x6 x7 x8 x9 r) (fun a => x10 (ix1 a)) (fun a => x11 (ix1 a)) j := by
  have e52 : idx_main_v52 (ix2 r j) = ix2 r (0 : Fin 1) := funext fun a => Fin.ext (by match a with | ⟨0, _⟩ => rfl | ⟨1, _⟩ => rfl)
  have e57 : idx_main_v57 (ix2 r j) = ix2 r (0 : Fin 1) := funext fun a => Fin.ext (by match a with | ⟨0, _⟩ => rfl | ⟨1, _⟩ => rfl)
  have e60 : idx_main_v59 (idx_main_v60 (ix2 r j)) = ix1 j := funext fun a => Fin.ext (by match a with | ⟨0, _⟩ => rfl)
  have e63 : idx_main_v62 (idx_main_v63 (ix2 r j)) = ix1 j := funext fun a => Fin.ext (by match a with | ⟨0, _⟩ => rfl)
  rw [val_main_v64_apply, val_main_v63_apply, val_main_v62_apply, e63, val_main_v61_apply, val_main_v60_apply,
    val_main_v59_apply, e60, val_main_v58_apply, val_main_v57_apply, e57, val_main_v56_apply, val_main_v55_apply,
    val_main_v54_apply, val_main_cst_7_apply, v51_at, val_main_v53_apply, val_main_v52_apply, e52, v40_at, v44_at]
  rfl

/-! ## The whole row -/

/-- The reference program's result at `(r, j)` is the specified row of its `r`-th input rows at `j`. -/
theorem ref_row (x0 x1 : S32768x1024.Idx → EReal) (x2 : S1024x1024.Idx → EReal) (x3 : S1024.Idx → EReal) (x4 : S1024x1024.Idx → EReal) (x5 : S1024.Idx → EReal) (x6 : S1024x1024.Idx → EReal) (x7 : S1024.Idx → EReal) (x8 : S1024x1024.Idx → EReal) (x9 x10 x11 : S1024.Idx → EReal) (r : Fin 32768) (j : Fin 1024) :
    val_main_v64 (F := Ideal) x0 x1 x2 x3 x4 x5 x6 x7 x8 x9 x10 x11 (ix2 r j)
      = Cert.RowSpec.row (fun k => x0 (ix2 r k)) (fun k => x1 (ix2 r k))
          (fun a b => x2 (ix2 a b)) (fun a b => x4 (ix2 a b)) (fun a b => x6 (ix2 a b)) (fun a b => x8 (ix2 a b))
          (fun a => x3 (ix1 a)) (fun a => x5 (ix1 a)) (fun a => x7 (ix1 a)) (fun a => x9 (ix1 a))
          (fun a => x10 (ix1 a)) (fun a => x11 (ix1 a)) j :=
  v64_at x0 x1 x2 x3 x4 x5 x6 x7 x8 x9 x10 x11 r j

end Cert.RefRow

end
-- ==== Proof.lean ====
/-
  A fused attention block against its plain reference, equal on the extended reals.

  Both programs map 32768 rows independently. For one row `sa` of the first activation and the matching row `st`
  of the second, with four 1024 × 1024 weight matrices and six 1024-vectors, both compute: three affine maps
  (query from `sa`; key and value from `st`); the 16 × 16 table of inner products between the query's and the key's
  16 heads of 64 features, scaled by 1/8; for each query head the softmax of its row of the table (largest entry
  subtracted, exponentials, divided by their sum); each head's weighted mixture of the value heads; the mixtures
  flattened feature-major; an affine output map plus the residual `sa`; and the normalisation of the resulting row
  (centred, scaled by the inverse root of variance plus ε, then scaled and shifted feature by feature).
  `RowSpec` states this row computation once.

  The kernel works on 128 blocks of 256 rows with the weights handed over transposed and in a narrower float format,
  and narrows its operands before each product; on the extended reals a change of format is the identity and a
  product into a zero accumulator is the plain sum, so each stage of the kernel's body, read at row `p` of a block,
  is the row computation's stage (`KernelRow`), and the blocks tile the array (`Blocks`). The reference works on
  whole arrays; read at row `r` each of its operations is the same stage (`RefRow`). The two differ in one
  operation only: the kernel multiplies the scores by 1/8 where the reference divides them by 8, and these agree on
  every extended real because 8 is finite and not zero. No other law is used, so the inputs' finiteness is not needed.

  The three frames are the generated ones (the reference's is its generated run with the result dropped); the
  idealisation rewrote nothing, so what it must preserve is `True`.
-/
import proofs.«103196_j64029372449400_1_alg».proof.Defs
import proofs.«103196_j64029372449400_1_alg».proof.Proof.Gen.Kernel
import proofs.«103196_j64029372449400_1_alg».proof.Proof.Gen.Kernel.Skeleton
import proofs.«103196_j64029372449400_1_alg».proof.Proof.Gen.Kernel.Launch
import proofs.«103196_j64029372449400_1_alg».proof.Proof.Gen.Kernel.Points
import proofs.«103196_j64029372449400_1_alg».proof.Proof.Gen.Kernel.Frame
import proofs.«103196_j64029372449400_1_alg».proof.Proof.Gen.KernelIdeal
import proofs.«103196_j64029372449400_1_alg».proof.Proof.Gen.KernelIdeal.Skeleton
import proofs.«103196_j64029372449400_1_alg».proof.Proof.Gen.KernelIdeal.Launch
import proofs.«103196_j64029372449400_1_alg».proof.Proof.Gen.KernelIdeal.Points
import proofs.«103196_j64029372449400_1_alg».proof.Proof.Gen.KernelIdeal.Frame
import proofs.«103196_j64029372449400_1_alg».proof.Proof.Gen.ReferenceIdeal
import proofs.«103196_j64029372449400_1_alg».proof.Proof.Gen.Pre_finite_inputs
import proofs.«103196_j64029372449400_1_alg».proof.Proof.Gen.KernelIdeal.Value
import proofs.«103196_j64029372449400_1_alg».proof.Proof.Gen.ReferenceIdeal.Run
import proofs.«103196_j64029372449400_1_alg».proof.Proof.Gen.ReferenceIdeal.Read
import proofs.«103196_j64029372449400_1_alg».proof.Proof.Blocks
import proofs.«103196_j64029372449400_1_alg».proof.Proof.RefRow
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The reference's result array is the row computation, row by row: the same whole-array function the kernel's
    output ends as. -/
theorem reference_whole (x0 x1 : Cert.ReferenceIdeal.S32768x1024.Idx → EReal) (x2 : Cert.ReferenceIdeal.S1024x1024.Idx → EReal)
    (x3 : Cert.ReferenceIdeal.S1024.Idx → EReal) (x4 : Cert.ReferenceIdeal.S1024x1024.Idx → EReal) (x5 : Cert.ReferenceIdeal.S1024.Idx → EReal)
    (x6 : Cert.ReferenceIdeal.S1024x1024.Idx → EReal) (x7 : Cert.ReferenceIdeal.S1024.Idx → EReal)
    (x8 : Cert.ReferenceIdeal.S1024x1024.Idx → EReal) (x9 x10 x11 : Cert.ReferenceIdeal.S1024.Idx → EReal) :
    Cert.ReferenceIdeal.Read.val_main_v64 (F := Ideal) x0 x1 x2 x3 x4 x5 x6 x7 x8 x9 x10 x11 = Cert.Blocks.whole x0 x1 x2 x3 x4 x5 x6 x7 x8 x9 x10 x11 := by
  funext i
  obtain ⟨r, j, rfl⟩ : ∃ (r : Fin 32768) (j : Fin 1024), i = ix2 r j :=
    ⟨⟨(i 0).val, idx2_lt0 i⟩, ⟨(i 1).val, idx2_lt1 i⟩, funext fun a => Fin.ext (by match a with | ⟨0, _⟩ => rfl | ⟨1, _⟩ => rfl)⟩
  exact Cert.RefRow.ref_row x0 x1 x2 x3 x4 x5 x6 x7 x8 x9 x10 x11 r j

/-- From memories agreeing on the arguments, both runs end with the result array at the row computation of the
    arguments, row by row. -/
theorem algebraic : Cert.algebraic_KernelIdeal_ReferenceIdeal := by
  intro m ρ m' ρ' _ hagree
  refine ⟨fun c => Cert.Blocks.G m c, Cert.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v64_eq, reference_whole]
  obtain ⟨a0, a1, a2, a3, a4, a5, a6, a7, a8, a9, a10, a11⟩ := hagree c
  rw [a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
